-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S1x256 : Shape := ⟨2, ![1, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S1x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S1x256 : Shape := ⟨2, ![1, 256]⟩
abbrev S200x10000 : Shape := ⟨2, ![200, 10000]⟩
abbrev S400x256 : Shape := ⟨2, ![400, 256]⟩
abbrev S200x256 : Shape := ⟨2, ![200, 256]⟩

abbrev nBuf : Space → Nat
  | .hbm => 5
  | .vmem => 10
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S1x256, .f32⟩
  | .hbm, ⟨4, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S400x256, .f32⟩
  | .local _ .vmem, ⟨8, _⟩ => ⟨S400x256, .f32⟩
  | .local _ .vmem, ⟨9, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S1x256_S1x256_0_0 : ∀ a, (![0, 0] : Fin 2 → Nat) a + S1x256.size a ≤ S1x256.size a
  h_S1x256 : 0 < S1x256.numel
  inb_S200x10000_S200x10000_0_0 : ∀ a, (![0, 0] : Fin 2 → Nat) a + S200x10000.size a ≤ S200x10000.size a
  h_S200x10000 : 0 < S200x10000.numel
  broadcasts_S1x256_S200x256 : S1x256.Broadcasts S200x256
  inb_S400x256_S200x256_0_0 : ∀ a, (![0, 0] : Fin 2 → Nat) a + S200x256.size a ≤ S400x256.size a
  h_S200x256 : 0 < S200x256.numel
  inb_S400x256_S200x256_200_0 : ∀ a, (![200, 0] : Fin 2 → Nat) a + S200x256.size a ≤ S400x256.size a
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x256.size a ≤ S10000x256.size a
  hwx0_5 : ∀ i : grid0.Coords, EltTy.bits .f32 = 32 ∨ (Rect.block (s := S10000x256) S400x256.size (cc0_transform_5 i) (hinb0_5 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S1x256 : Shape := ⟨2, ![1, 256]⟩

abbrev nBuf : Space → Nat
  | .hbm => 8
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S1x256, .f32⟩
  | .hbm, ⟨4, _⟩ => ⟨S10000x256, .f32⟩
  | .hbm, ⟨5, _⟩ => ⟨S10000x256, .f32⟩
  | .hbm, ⟨6, _⟩ => ⟨S10000x256, .f32⟩
  | .hbm, ⟨7, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S1x256_S10000x256_0_1 : S1x256.BroadcastsInDim S10000x256 (![0, 1] : Fin 2 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.FrameDefsB.lean ====
/-
  What the point-by-point runs of the fused graph-convolution kernel share.

  The kernel walks 25 grid points.  Point t is handed all of x, W and b, rows 400t .. 400t+199 of adj through
  one window and rows 400t+200 .. 400t+399 of the SAME array through another, and one 400-row block of the
  result.  A scratch buffer of the size of x keeps h = x · W: it is filled at point 0 only and read at every
  point, so what it holds travels from point to point.  Here: the contents of the buffers when the region is
  entered, the block each window shows at a point, the one condition of the body (is this the first point?)
  decided over the grid, the staging memrefs by name, and that an input window's buffer always holds its block.
-/
import proofs.«150722_g60902636257280_cont_9to1c4b_369_12_alg».proof.Proof.Gen.Kernel.Launch
import proofs.«150722_g60902636257280_cont_9to1c4b_369_12_alg».proof.Proof.Gen.Kernel.Skeleton
import proofs.«150722_g60902636257280_cont_9to1c4b_369_12_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- The buffers' contents when the region is entered: no host operation precedes it, so the launch contents. -/
abbrev atEntry (c : Dev nD) (b : Ref sig .tc) : Buf (Elt F) ((c : Thread nD τ).loc b) := m ((c : Thread nD τ).loc b)

/-- @main is one call of the region. -/
theorem main_is_region (c : Dev nD) :
    main (F := F) c = (.op (.customCall (Pipeline.entry 0) ()) fun _ => .ret ⟨⟩) := rfl

/-- So @main reaches the region with every buffer at its launch contents. -/
theorem reaches_region (𝒱₀ : Variants) :
    Pipeline.HMain (Ix := Unit) (Name := ℕ) (U := UR sig nD τ) (Lvl := ℕ) cfgs 0 defs₀ 𝒱₀ m (main (F := F)) (atEntry m) :=
  Pipeline.hmain_region cfgs 0 defs₀ 𝒱₀ m main main_is_region

/-! ## The blocks -/

/-- The block window `w` shows at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! ## The one condition: is this the first point? -/

/-- The body's `scf.if`: the grid coordinate compared with zero. -/
abbrev firstPoint (i : grid0.Coords) : Prop :=
  (Scalar.cmpi .ne (Scalar.extui (Scalar.cmpi .eq (BitVec.ofNat 32 (i 0).val) 0#32)) 0#32) = 1#1

/-- It holds at point 0 and nowhere else. -/
theorem firstPoint_iff : ∀ t : Fin cfg0.N, firstPoint (grid0.coords t) ↔ t.val = 0 :=
  (by decide +kernel : ∀ t : Fin grid0.N, firstPoint (grid0.coords t) ↔ t.val = 0)

/-! ## The memrefs the body is called with -/

abbrev stg0 (t : Fin cfg0.N) : Memref sig .tc .vmem S10000x256 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S256x256 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S1x256 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S200x10000 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S200x10000 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S400x256 .f32 := win0_5.stage (cfg0.slots t 5)
abbrev stg5_whole (t : Fin cfg0.N) : (stg5 t).IsWhole := hstage0_5 ((cfg0.slots t 5).cast nbuf0_5)
/-- The scratch that keeps h = x · W between points. -/
abbrev carried : Memref sig .tc .vmem S10000x256 .bf16 := Memref.whole cc0_scratch0
/-- Views through which the contents of the result's staging buffer and of the scratch are stated. -/
abbrev outView : View sig .tc .vmem S400x256 .f32 := (Memref.whole cc0_stg5_0 : Memref sig .tc .vmem S400x256 .f32).view
abbrev carriedView : View sig .tc .vmem S10000x256 .bf16 := carried.view

/-- The scoped buffers that are no staging buffer are the scratch alone, owned at some contents. -/
theorem scratch_alone (c : Dev nD) :
    (Pipeline.scopedRest (Ix := Unit) (Name := ℕ) (U := UR sig nD τ) (Lvl := ℕ) (Val := Elt F) spec0 c : sProp 𝕄)
      = iprop((∃ d, owns (c : Thread nD τ) carried fullShare d)) := by
  rw [scopedRest0_eq]; simp only [carried, owns_whole]; try rfl

/-! ## No window is ever idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-! ## An input's staging buffer holds its block at every point, fetched there or not -/

section Found
variable {c : Dev nD} (dat : Dat τ (Elt F) Unit ℕ (UR sig nD τ) ℕ cfg0 c)

theorem found0 (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3 (hA : dat.A 3 = atEntry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4 (hA : dat.A 4 = atEntry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
end Found

end Cert.Kernel.Hand

end
-- ==== Proof.BodyLaterB.lean ====
/-
  The body at a point that is not the first.  The branch that fills the scratch is skipped; the body reads the
  scratch (h, as the point before left it), b and the two row blocks of adj, and stores the two halves of the
  result block.  The run is symbolic: the two stores are found as pieces of the result's staging buffer, last
  first, and the scratch is handed back as it was found.
-/
import proofs.«150722_g60902636257280_cont_9to1c4b_369_12_alg».proof.Proof.FrameDefsB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a later point, on whole staging memrefs — the inputs' at their contents, the result's at anything, the
    scratch at contents `xs` — the body runs to its end holding the inputs and the scratch as they were and the
    result's buffer with the two stores written over it. -/
noncomputable def laterRun (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : ¬firstPoint i)
    (x0 : Vec F S10000x256 .f32) (x1 : Vec F S256x256 .f32) (x2 : Vec F S1x256 .f32) (x3 : Vec F S200x10000 .f32) (x4 : Vec F S200x10000 .f32) (xs : Vec F S10000x256 .bf16) :
    { L5 : List (View.Piece (Elt F) S400x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.Kernel.Hand

end
-- ==== Proof.BodyFirstB.lean ====
/-
  The body at the first point.  The branch that fills the scratch is taken: the body reads x and W, forms
  h = x · W and stores it over the whole scratch (whatever the scratch held); it then goes on as at any other
  point, reading h back.  The run finds the store into the scratch and the two stores into the result's staging
  buffer as pieces.
-/
import proofs.«150722_g60902636257280_cont_9to1c4b_369_12_alg».proof.Proof.BodyLaterB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point, on whole staging memrefs — the inputs' at their contents, the result's and the scratch
    at anything — the body runs to its end holding the inputs as they were, the scratch with its one store written
    and the result's buffer with its two stores written. -/
noncomputable def firstRun (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) :
    Σ' (L5 : List (View.Piece (Elt F) S400x256 .f32)), { LS : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.Kernel.Hand

end
-- ==== Proof.LibSharedCarry.lean ====
/-
  The launch of a one-region TensorCore program whose INPUT windows may read one array through several index
  maps and whose body keeps something of its own from one grid point to the next (a scratch buffer filled at
  one point and read at the later ones): the run of @main to the end, every pipelined array at what the
  write-backs leave and every other unscoped buffer as the region found it.

  The arrays behind the windows are handed over whole; how one array's ownership is divided among the windows
  that read it is the caller's entailment `hsplit`.  The invariant between grid points is the proof data's own:
  the core's scoped buffers that are no staging buffer yield it before the first point (`hin`) and it yields
  them back after the last (`hout`).
-/
import Idealize.ShloMosaic.Lib.Pipeline.Frame

noncomputable section

namespace Cert.LibSharedCarry

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- Every weakly fair execution of @main ends, nothing faulting, with each window's array at the contents the
    write-backs of all grid points leave (`Dat.arrAt w N`) and every unscoped buffer that is no window's array at
    its contents `V` on entering the region.  The windows' ARRAYS need not be distinct (`hsplit`), and the body may
    carry an invariant of its own between points (`hin`, `hout`). -/
theorem θ_run_frame_shared_carry
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, scopedRest (Ix := Unit) (Name := ℕ) (U := UR sig nD τ) (Lvl := ℕ) (Val := Val) (cfgs p).spec c ⊢ (dats p c).Φ 0)
    (hout : ∀ c, (dats p c).Φ (Fin.last (cfgs p).N)
      ⊢ scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g)
      (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfgs p).spec c (V c))
    (fun c => by
      iintro H
      isplitr
      · iempintro
      · iexact H)
    (fun c => (show _ ⊢ scopedRest (Ix := Unit) (Name := ℕ) (U := UR sig nD τ) (Lvl := ℕ) (Val := Val) (cfgs p).spec c from by
      iintro ⟨-, H⟩
      iexact H).trans (hin c))
    (fun c => (hout c).trans (by
      iintro H
      isplitr
      · iempintro
      · iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Cert.LibSharedCarry

end
-- ==== Proof.FrameB.lean ====
/-
  The frame of the fused graph-convolution kernel: every execution of @main ends, faults nowhere and leaves
  x, adj, W and b as they were; and the result array ends at what the 25 write-backs leave.

  What travels between grid points is the scratch: before the first point it holds anything; after it, and so
  before and after every later point, it holds what the first point stored (`keptH`: h = x · W as the body
  computes it).  The result's staging buffer after point t holds the two stores of that point (`resultAt`): at
  the first point computed from the freshly stored h, at a later point from the h found in the scratch.  adj is
  read through two windows, so each holds one half of its ownership.
-/
import proofs.«150722_g60902636257280_cont_9to1c4b_369_12_alg».proof.Proof.BodyFirstB
import proofs.«150722_g60902636257280_cont_9to1c4b_369_12_alg».proof.Proof.LibSharedCarry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores of one point cover -/

/-- The two stores of the first point tile the 400-row block of the result. -/
theorem firstCover5 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) (y : S400x256.Idx) :
    ∃ pc ∈ (firstRun c i arg1 harg1 arg2 harg2 arg3 harg3 arg4 harg4 arg5 harg5 arg6 harg6 arg7 harg7 hc x0 x1 x2 x3 x4).1, y ∈ pc.1.set :=
  View.cover_of_tiledL (firstRun c i arg1 harg1 arg2 harg2 arg3 harg3 arg4 harg4 arg5 harg5 arg6 harg6 arg7 harg7 hc x0 x1 x2 x3 x4).1 S200x256.size (by sl_kernel_rfl) y

/-- The one store into the scratch at the first point covers it. -/
theorem firstCoverS (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) (y : S10000x256.Idx) :
    ∃ pc ∈ (firstRun c i arg1 harg1 arg2 harg2 arg3 harg3 arg4 harg4 arg5 harg5 arg6 harg6 arg7 harg7 hc x0 x1 x2 x3 x4).2.1, y ∈ pc.1.set :=
  View.cover_of_tiledL (firstRun c i arg1 harg1 arg2 harg2 arg3 harg3 arg4 harg4 arg5 harg5 arg6 harg6 arg7 harg7 hc x0 x1 x2 x3 x4).2.1 S10000x256.size (by sl_kernel_rfl) y

/-- The two stores of a later point tile the block of the result. -/
theorem laterCover5 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : ¬firstPoint i)
    (x0 : Vec F S10000x256 .f32) (x1 : Vec F S256x256 .f32) (x2 : Vec F S1x256 .f32) (x3 : Vec F S200x10000 .f32) (x4 : Vec F S200x10000 .f32) (xs : Vec F S10000x256 .bf16) (y : S400x256.Idx) :
    ∃ pc ∈ (laterRun c i arg1 harg1 arg2 harg2 arg3 harg3 arg4 harg4 arg5 harg5 arg6 harg6 arg7 harg7 hc x0 x1 x2 x3 x4 xs).1, y ∈ pc.1.set :=
  View.cover_of_tiledL (laterRun c i arg1 harg1 arg2 harg2 arg3 harg3 arg4 harg4 arg5 harg5 arg6 harg6 arg7 harg7 hc x0 x1 x2 x3 x4 xs).1 S200x256.size (by sl_kernel_rfl) y

/-- What the first point leaves in the result's staging buffer: its stores read back. -/
def firstOut (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) : Vec F S400x256 .f32 :=
  outView.read (Elt F) (outView.writes (Elt F) outView.junk (firstRun c i arg1 harg1 arg2 harg2 arg3 harg3 arg4 harg4 arg5 harg5 arg6 harg6 arg7 harg7 hc x0 x1 x2 x3 x4).1)

/-- What the first point leaves in the scratch: its store read back. -/
def firstKeep (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) : Vec F S10000x256 .bf16 :=
  carriedView.read (Elt F) (carriedView.writes (Elt F) carriedView.junk (firstRun c i arg1 harg1 arg2 harg2 arg3 harg3 arg4 harg4 arg5 harg5 arg6 harg6 arg7 harg7 hc x0 x1 x2 x3 x4).2.1)

/-- What a later point leaves in the result's staging buffer, the scratch holding `xs`. -/
def laterOut (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : ¬firstPoint i)
    (x0 : Vec F S10000x256 .f32) (x1 : Vec F S256x256 .f32) (x2 : Vec F S1x256 .f32) (x3 : Vec F S200x10000 .f32) (x4 : Vec F S200x10000 .f32) (xs : Vec F S10000x256 .bf16) : Vec F S400x256 .f32 :=
  outView.read (Elt F) (outView.writes (Elt F) outView.junk (laterRun c i arg1 harg1 arg2 harg2 arg3 harg3 arg4 harg4 arg5 harg5 arg6 harg6 arg7 harg7 hc x0 x1 x2 x3 x4 xs).1)

/-! ## Point by point -/

/-- The first grid point. -/
abbrev t₀ : Fin cfg0.N := ⟨0, by rw [show cfg0.N = 25 from N_0]; omega⟩

/-- What the scratch holds from the first point on. -/
def keptH (c : Dev nD) : Vec F S10000x256 .bf16 :=
  firstKeep c (grid0.coords t₀) (stg0 t₀) (stg0_whole t₀) (stg1 t₀) (stg1_whole t₀) (stg2 t₀) (stg2_whole t₀) (stg3 t₀) (stg3_whole t₀) (stg4 t₀) (stg4_whole t₀) (stg5 t₀) (stg5_whole t₀) carried (Memref.isWhole_whole _) ((firstPoint_iff t₀).mpr rfl) (blockAt m c 0 t₀) (blockAt m c 1 t₀) (blockAt m c 2 t₀) (blockAt m c 3 t₀) (blockAt m c 4 t₀)

/-- What the result's staging buffer holds after the body at point `t`. -/
def resultAt (c : Dev nD) (t : Fin cfg0.N) : Vec F S400x256 .f32 :=
  if h : t.val = 0 then
    firstOut c (grid0.coords t) (stg0 t) (stg0_whole t) (stg1 t) (stg1_whole t) (stg2 t) (stg2_whole t) (stg3 t) (stg3_whole t) (stg4 t) (stg4_whole t) (stg5 t) (stg5_whole t) carried (Memref.isWhole_whole _) ((firstPoint_iff t).mpr h) (blockAt m c 0 t) (blockAt m c 1 t) (blockAt m c 2 t) (blockAt m c 3 t) (blockAt m c 4 t)
  else
    laterOut c (grid0.coords t) (stg0 t) (stg0_whole t) (stg1 t) (stg1_whole t) (stg2 t) (stg2_whole t) (stg3 t) (stg3_whole t) (stg4 t) (stg4_whole t) (stg5 t) (stg5_whole t) carried (Memref.isWhole_whole _) (fun hh => h ((firstPoint_iff t).mp hh)) (blockAt m c 0 t) (blockAt m c 1 t) (blockAt m c 2 t) (blockAt m c 3 t) (blockAt m c 4 t) (keptH m c)

theorem resultAt_first (c : Dev nD) (t : Fin cfg0.N) (h : t.val = 0) :
    resultAt m c t = firstOut c (grid0.coords t) (stg0 t) (stg0_whole t) (stg1 t) (stg1_whole t) (stg2 t) (stg2_whole t) (stg3 t) (stg3_whole t) (stg4 t) (stg4_whole t) (stg5 t) (stg5_whole t) carried (Memref.isWhole_whole _) ((firstPoint_iff t).mpr h) (blockAt m c 0 t) (blockAt m c 1 t) (blockAt m c 2 t) (blockAt m c 3 t) (blockAt m c 4 t) := by
  unfold resultAt; rw [dif_pos h]

theorem resultAt_later (c : Dev nD) (t : Fin cfg0.N) (h : ¬t.val = 0) :
    resultAt m c t = laterOut c (grid0.coords t) (stg0 t) (stg0_whole t) (stg1 t) (stg1_whole t) (stg2 t) (stg2_whole t) (stg3 t) (stg3_whole t) (stg4 t) (stg4_whole t) (stg5 t) (stg5_whole t) carried (Memref.isWhole_whole _) (fun hh => h ((firstPoint_iff t).mp hh)) (blockAt m c 0 t) (blockAt m c 1 t) (blockAt m c 2 t) (blockAt m c 3 t) (blockAt m c 4 t) (keptH m c) := by
  unfold resultAt; rw [dif_neg h]

/-- The invariant before position `n`: before the first point the scratch at anything, afterwards at `keptH`. -/
def carriedAt (c : Dev nD) : ℕ → sProp 𝕄
  | 0 => Pipeline.scopedRest (Ix := Unit) (Name := ℕ) (U := UR sig nD τ) (Lvl := ℕ) (Val := Elt F) spec0 c
  | _ + 1 => owns (c : Thread nD τ) carried fullShare (keptH m c)

theorem carriedAt_pos (c : Dev nD) (n : ℕ) (hn : n ≠ 0) :
    carriedAt m c n = owns (c : Thread nD τ) carried fullShare (keptH m c) := by
  cases n with
  | zero => exact absurd rfl hn
  | succ n => rfl

/-! ## The proof data -/

/-- The arrays as the region finds them; after the body each input's buffer at its block and the result's at
    `resultAt`; the invariant `carriedAt`; nothing owed; adj's ownership halved between its two windows. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => resultAt m c t
  Φ t := carriedAt m c t.val
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = atEntry m c (Pipeline.arrRef spec0 w) := by
  dsimp only [dats]

theorem Phi_castSucc (c : Dev nD) (t : Fin cfg0.N) : (dats m 0 c).Φ t.castSucc = carriedAt m c t.val := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = resultAt m c t := by dsimp only [dats]

theorem before0 (c : Dev nD) (t : Fin cfg0.N) (d) : (dats m 0 c).before 0 t d = blockAt m c 0 t :=
  found0 m (dats m 0 c) (A_eq m c 0) (after0 m c) t d
theorem before1 (c : Dev nD) (t : Fin cfg0.N) (d) : (dats m 0 c).before 1 t d = blockAt m c 1 t :=
  found1 m (dats m 0 c) (A_eq m c 1) (after1 m c) t d
theorem before2 (c : Dev nD) (t : Fin cfg0.N) (d) : (dats m 0 c).before 2 t d = blockAt m c 2 t :=
  found2 m (dats m 0 c) (A_eq m c 2) (after2 m c) t d
theorem before3 (c : Dev nD) (t : Fin cfg0.N) (d) : (dats m 0 c).before 3 t d = blockAt m c 3 t :=
  found3 m (dats m 0 c) (A_eq m c 3) (after3 m c) t d
theorem before4 (c : Dev nD) (t : Fin cfg0.N) (d) : (dats m 0 c).before 4 t d = blockAt m c 4 t :=
  found4 m (dats m 0 c) (A_eq m c 4) (after4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (stg0 t) fullShare (blockAt m c 0 t) := by
  unfold Dat.leavesExact; rw [live0 t, after0]
theorem leaves1 (c : Dev nD) (t : Fin cfg0.N) : (dats m 0 c).leavesExact 1 t = owns (c : Thread nD τ) (stg1 t) fullShare (blockAt m c 1 t) := by
  unfold Dat.leavesExact; rw [live1 t, after1]
theorem leaves2 (c : Dev nD) (t : Fin cfg0.N) : (dats m 0 c).leavesExact 2 t = owns (c : Thread nD τ) (stg2 t) fullShare (blockAt m c 2 t) := by
  unfold Dat.leavesExact; rw [live2 t, after2]
theorem leaves3 (c : Dev nD) (t : Fin cfg0.N) : (dats m 0 c).leavesExact 3 t = owns (c : Thread nD τ) (stg3 t) fullShare (blockAt m c 3 t) := by
  unfold Dat.leavesExact; rw [live3 t, after3]
theorem leaves4 (c : Dev nD) (t : Fin cfg0.N) : (dats m 0 c).leavesExact 4 t = owns (c : Thread nD τ) (stg4 t) fullShare (blockAt m c 4 t) := by
  unfold Dat.leavesExact; rw [live4 t, after4]
theorem leaves5 (c : Dev nD) (t : Fin cfg0.N) : (dats m 0 c).leavesExact 5 t = owns (c : Thread nD τ) (stg5 t) fullShare (resultAt m c t) := by
  unfold Dat.leavesExact; rw [live5 t, after5]

end Cert.Kernel.Hand

end
-- ==== Proof.ObligB.lean ====
/-
  The body's obligation point by point.  At the first point the invariant hands the body the scratch at
  anything and takes it back at what the point stored; at a later point it hands it the scratch at `keptH` and
  takes it back unchanged.  The inputs' buffers hold their blocks throughout; the result's buffer ends with the
  point's two stores.
-/
import proofs.«150722_g60902636257280_cont_9to1c4b_369_12_alg».proof.Proof.FrameB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a later point. -/
theorem sound_later (c : Dev nD) (t : Fin cfg0.N) (hz : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [leaves0, leaves1, leaves2, leaves3, leaves4, leaves5]
  rw [show (dats m 0 c).Φ t.succ = carriedAt m c (t.val + 1) from rfl, carriedAt_pos m c (t.val + 1) (Nat.succ_ne_zero _)]
  rw [Phi_castSucc, carriedAt_pos m c t.val hz, resultAt_later m c t hz]
  unfold laterOut
  iintro ⟨HS, Ho, ⟨%d0, H0⟩, ⟨%d1, H1⟩, ⟨%d2, H2⟩, ⟨%d3, H3⟩, ⟨%d4, H4⟩, ⟨%d5, H5⟩⟩
  iapply ((laterRun (F := F) c (grid0.coords t) (stg0 t) (stg0_whole t) (stg1 t) (stg1_whole t) (stg2 t) (stg2_whole t) (stg3 t) (stg3_whole t) (stg4 t) (stg4_whole t) (stg5 t) (stg5_whole t) carried (Memref.isWhole_whole _) (fun hh => hz ((firstPoint_iff t).mp hh)) (blockAt m c 0 t) (blockAt m c 1 t) (blockAt m c 2 t) (blockAt m c 3 t) (blockAt m c 4 t) (keptH m c)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact View.read_writes_of_cover _ _ _ _ _ (laterCover5 (F := F) c (grid0.coords t) (stg0 t) (stg0_whole t) (stg1 t) (stg1_whole t) (stg2 t) (stg2_whole t) (stg3 t) (stg3_whole t) (stg4 t) (stg4_whole t) (stg5 t) (stg5_whole t) carried (Memref.isWhole_whole _) (fun hh => hz ((firstPoint_iff t).mp hh)) (blockAt m c 0 t) (blockAt m c 1 t) (blockAt m c 2 t) (blockAt m c 3 t) (blockAt m c 4 t) (keptH m c))

set_option maxHeartbeats 1600000 in
/-- The body at the first point. -/
theorem sound_first (c : Dev nD) :
    bodyPre m c t₀ ⊢ wp frame (wpE (defs₀ (F := F)) Variants.none c none) Set.univ (bodyAt0 t₀) (fun _ => bodyPost m c t₀) := by
  unfold bodyPre bodyPost bodyAt0
  simp only [before0, before1, before2, before3, before4]
  rw [show (dats m 0 c).owesAt () (t₀ : Fin cfg0.N).succ = (dats m 0 c).owesAt () (t₀ : Fin cfg0.N).castSucc from rfl]
  rw [leaves0, leaves1, leaves2, leaves3, leaves4, leaves5]
  rw [show (dats m 0 c).Φ (t₀ : Fin cfg0.N).succ = carriedAt m c ((t₀ : Fin cfg0.N).val + 1) from rfl, carriedAt_pos m c ((t₀ : Fin cfg0.N).val + 1) (Nat.succ_ne_zero _)]
  rw [Phi_castSucc]
  rw [show carriedAt m c (t₀ : Fin cfg0.N).val = Pipeline.scopedRest (Ix := Unit) (Name := ℕ) (U := UR sig nD τ) (Lvl := ℕ) (Val := Elt F) spec0 c from rfl, scratch_alone]
  rw [resultAt_first m c t₀ rfl]
  unfold firstOut keptH firstKeep
  iintro ⟨⟨%ds, HS⟩, Ho, ⟨%d0, H0⟩, ⟨%d1, H1⟩, ⟨%d2, H2⟩, ⟨%d3, H3⟩, ⟨%d4, H4⟩, ⟨%d5, H5⟩⟩
  iapply ((firstRun (F := F) c (grid0.coords t₀) (stg0 t₀) (stg0_whole t₀) (stg1 t₀) (stg1_whole t₀) (stg2 t₀) (stg2_whole t₀) (stg3 t₀) (stg3_whole t₀) (stg4 t₀) (stg4_whole t₀) (stg5 t₀) (stg5_whole t₀) carried (Memref.isWhole_whole _) ((firstPoint_iff t₀).mpr rfl) (blockAt m c 0 t₀) (blockAt m c 1 t₀) (blockAt m c 2 t₀) (blockAt m c 3 t₀) (blockAt m c 4 t₀)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexists _; iexact HS
  iintro ⟨H0, H1, H2, H3, H4, ⟨%e5, H5⟩, ⟨%es, HS⟩⟩
  isplitl [HS]
  · unfold owns; iexists _; isplitr
    swap; · iexact HS
    ipureintro
    exact View.read_writes_of_cover _ _ _ _ _ (firstCoverS (F := F) c (grid0.coords t₀) (stg0 t₀) (stg0_whole t₀) (stg1 t₀) (stg1_whole t₀) (stg2 t₀) (stg2_whole t₀) (stg3 t₀) (stg3_whole t₀) (stg4 t₀) (stg4_whole t₀) (stg5 t₀) (stg5_whole t₀) carried (Memref.isWhole_whole _) ((firstPoint_iff t₀).mpr rfl) (blockAt m c 0 t₀) (blockAt m c 1 t₀) (blockAt m c 2 t₀) (blockAt m c 3 t₀) (blockAt m c 4 t₀))
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact View.read_writes_of_cover _ _ _ _ _ (firstCover5 (F := F) c (grid0.coords t₀) (stg0 t₀) (stg0_whole t₀) (stg1 t₀) (stg1_whole t₀) (stg2 t₀) (stg2_whole t₀) (stg3 t₀) (stg3_whole t₀) (stg4 t₀) (stg4_whole t₀) (stg5 t₀) (stg5_whole t₀) carried (Memref.isWhole_whole _) ((firstPoint_iff t₀).mpr rfl) (blockAt m c 0 t₀) (blockAt m c 1 t₀) (blockAt m c 2 t₀) (blockAt m c 3 t₀) (blockAt m c 4 t₀))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · obtain rfl : t = t₀ := Fin.ext hz
    exact sound_first m c
  · exact sound_later m c t hz

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunB.lean ====
/-
  The launch.  The scratch at anything is what the launch hands the body before the first point, and after the
  last point its contents are forgotten.  The five distinct buffers behind the six windows make up the windows'
  arrays: adj's buffer is divided into two halves, one for each of the two windows that read it.  Then every
  execution of @main ends, faults nowhere, leaves x, adj, W and b as they were, and leaves the result array at
  what the write-backs of the 25 points put there.
-/
import proofs.«150722_g60902636257280_cont_9to1c4b_369_12_alg».proof.Proof.ObligB
import proofs.«150722_g60902636257280_cont_9to1c4b_369_12_alg».proof.Proof.LibSharedCarry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant is the scratch at anything: what the launch hands over. -/
theorem enter (c : Dev nD) :
    Pipeline.scopedRest (Ix := Unit) (Name := ℕ) (U := UR sig nD τ) (Lvl := ℕ) (Val := Elt F) spec0 c ⊢ (dats m 0 c).Φ 0 :=
  Idealize.SL.BI.Entails.refl _

/-- After the last point the scratch's contents are forgotten. -/
theorem leave (c : Dev nD) :
    (dats m 0 c).Φ (Fin.last cfg0.N)
      ⊢ Pipeline.scopedRest (Ix := Unit) (Name := ℕ) (U := UR sig nD τ) (Lvl := ℕ) (Val := Elt F) spec0 c := by
  rw [show (dats m 0 c).Φ (Fin.last cfg0.N) = carriedAt m c cfg0.N from rfl,
    carriedAt_pos m c _ (by rw [show cfg0.N = 25 from N_0]; omega), scratch_alone]
  iintro H
  iexists _; iexact H

/-- The distinct buffers behind the windows, one by one: x, W, b, adj and the result. -/
theorem buffers_listed (c : Dev nD) :
    (Pipeline.arrBufs spec0 c (atEntry m c) : sProp 𝕄)
      = iprop(((c.tc : Thread nD τ).loc main_arg0 ↦{fullShare} atEntry m c main_arg0)
          ∗ ((c.tc : Thread nD τ).loc main_arg2 ↦{fullShare} atEntry m c main_arg2)
          ∗ ((c.tc : Thread nD τ).loc main_arg3 ↦{fullShare} atEntry m c main_arg3)
          ∗ ((c.tc : Thread nD τ).loc main_arg1 ↦{fullShare} atEntry m c main_arg1)
          ∗ ((c.tc : Thread nD τ).loc main_v0 ↦{fullShare} atEntry m c main_v0)) := by
  unfold Pipeline.arrBufs
  exact bigSep_eq_bigSepL_of_eq [main_arg0, main_arg2, main_arg3, main_arg1, main_v0] (by decide) (by decide) _

/-- They make up the windows' arrays: adj's buffer in two halves. -/
theorem arrays_from_buffers (c : Dev nD) :
    (Pipeline.arrBufs spec0 c (atEntry m c) : sProp 𝕄) ⊢ (dats m 0 c).arrays ((dats m 0 c).arrAt · 0) := by
  rw [buffers_listed]
  unfold Dat.arrays
  rw [bigSep_W0]
  have e0 : ((cfg0.win 0).arr.view.loc (c.tc : Thread nD τ) ↦[(cfg0.win 0).arr.view.set]{(dats m 0 c).share 0} (dats m 0 c).arrAt 0 0 : sProp 𝕄)
      = ((c.tc : Thread nD τ).loc main_arg0 ↦{fullShare} atEntry m c main_arg0) := by
    rw [(arr_whole0 0).set_eq_univ]; rfl
  have e1 : ((cfg0.win 1).arr.view.loc (c.tc : Thread nD τ) ↦[(cfg0.win 1).arr.view.set]{(dats m 0 c).share 1} (dats m 0 c).arrAt 1 0 : sProp 𝕄)
      = ((c.tc : Thread nD τ).loc main_arg2 ↦{fullShare} atEntry m c main_arg2) := by
    rw [(arr_whole0 1).set_eq_univ]; rfl
  have e2 : ((cfg0.win 2).arr.view.loc (c.tc : Thread nD τ) ↦[(cfg0.win 2).arr.view.set]{(dats m 0 c).share 2} (dats m 0 c).arrAt 2 0 : sProp 𝕄)
      = ((c.tc : Thread nD τ).loc main_arg3 ↦{fullShare} atEntry m c main_arg3) := by
    rw [(arr_whole0 2).set_eq_univ]; rfl
  have e3 : ((cfg0.win 3).arr.view.loc (c.tc : Thread nD τ) ↦[(cfg0.win 3).arr.view.set]{(dats m 0 c).share 3} (dats m 0 c).arrAt 3 0 : sProp 𝕄)
      = ((c.tc : Thread nD τ).loc main_arg1 ↦{fullShare.left} atEntry m c main_arg1) := by
    rw [(arr_whole0 3).set_eq_univ]; rfl
  have e4 : ((cfg0.win 4).arr.view.loc (c.tc : Thread nD τ) ↦[(cfg0.win 4).arr.view.set]{(dats m 0 c).share 4} (dats m 0 c).arrAt 4 0 : sProp 𝕄)
      = ((c.tc : Thread nD τ).loc main_arg1 ↦{fullShare.right} atEntry m c main_arg1) := by
    rw [(arr_whole0 4).set_eq_univ]; rfl
  have e5 : ((cfg0.win 5).arr.view.loc (c.tc : Thread nD τ) ↦[(cfg0.win 5).arr.view.set]{(dats m 0 c).share 5} (dats m 0 c).arrAt 5 0 : sProp 𝕄)
      = ((c.tc : Thread nD τ).loc main_v0 ↦{fullShare} atEntry m c main_v0) := by
    rw [(arr_whole0 5).set_eq_univ]; rfl
  rw [e0, e1, e2, e3, e4, e5]
  iintro ⟨H0, H2, H3, H1, H5⟩
  ihave H1' := (pointsTo_share (PosShare.mem_left_op_right fullShare)).1 $$ H1
  icases H1' with ⟨H1l, H1r⟩
  isplitl [H0]; · iexact H0
  isplitl [H2]; · iexact H2
  isplitl [H3]; · iexact H3
  isplitl [H1l]; · iexact H1l
  isplitl [H1r]; · iexact H1r
  iexact H5

set_option backward.isDefEq.respectTransparency.types false in
/-- Every weakly fair execution of @main ends, nothing faulting, each window's array at what the write-backs
    leave and nothing else of the unscoped buffers changed. -/
theorem run_main : θ_run defs (onTc (τ := τ) (main (F := F))) (s₀ m ρ) (Pipeline.FramePost cfgs (dats m) 0 (atEntry m)) :=
  Cert.LibSharedCarry.θ_run_frame_shared_carry cfgs (dats m) (0 : Fin 1) defs₀ Variants.none cellOf_inj winFacts₀0 block_pos0 arr_whole0 stage_whole0
    m ρ main (fun c => (body_obligation m c).loose) (fun _ _ => rfl) (atEntry m) (reaches_region m Variants.none)
    (arrays_from_buffers m) (enter m) (leave m)

/-- The four argument arrays end as they began: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans (A_eq m c 0)),
     ((h c).1 3).trans (((dats m 0 c).arrAt_in 3 rfl _).trans (A_eq m c 3)),
     ((h c).1 1).trans (((dats m 0 c).arrAt_in 1 rfl _).trans (A_eq m c 1)),
     ((h c).1 2).trans (((dats m 0 c).arrAt_in 2 rfl _).trans (A_eq m c 2))⟩) (run_main m ρ)

end Cert.Kernel.Hand

end
-- ==== Proof.FrameDefsI.lean ====
/-
  What the point-by-point runs of the fused graph-convolution kernel share.

  The kernel walks 25 grid points.  Point t is handed all of x, W and b, rows 400t .. 400t+199 of adj through
  one window and rows 400t+200 .. 400t+399 of the SAME array through another, and one 400-row block of the
  result.  A scratch buffer of the size of x keeps h = x · W: it is filled at point 0 only and read at every
  point, so what it holds travels from point to point.  Here: the contents of the buffers when the region is
  entered, the block each window shows at a point, the one condition of the body (is this the first point?)
  decided over the grid, the staging memrefs by name, and that an input window's buffer always holds its block.
-/
import proofs.«150722_g60902636257280_cont_9to1c4b_369_12_alg».proof.Proof.Gen.KernelIdeal.Launch
import proofs.«150722_g60902636257280_cont_9to1c4b_369_12_alg».proof.Proof.Gen.KernelIdeal.Skeleton
import proofs.«150722_g60902636257280_cont_9to1c4b_369_12_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main is the region alone -/

/-- The buffers' contents when the region is entered: no host operation precedes it, so the launch contents. -/
abbrev atEntry (c : Dev nD) (b : Ref sig .tc) : Buf (Elt F) ((c : Thread nD τ).loc b) := m ((c : Thread nD τ).loc b)

/-- @main is one call of the region. -/
theorem main_is_region (c : Dev nD) :
    main (F := F) c = (.op (.customCall (Pipeline.entry 0) ()) fun _ => .ret ⟨⟩) := rfl

/-- So @main reaches the region with every buffer at its launch contents. -/
theorem reaches_region (𝒱₀ : Variants) :
    Pipeline.HMain (Ix := Unit) (Name := ℕ) (U := UR sig nD τ) (Lvl := ℕ) cfgs 0 defs₀ 𝒱₀ m (main (F := F)) (atEntry m) :=
  Pipeline.hmain_region cfgs 0 defs₀ 𝒱₀ m main main_is_region

/-! ## The blocks -/

/-- The block window `w` shows at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! ## The one condition: is this the first point? -/

/-- The body's `scf.if`: the grid coordinate compared with zero. -/
abbrev firstPoint (i : grid0.Coords) : Prop :=
  (Scalar.cmpi .ne (Scalar.extui (Scalar.cmpi .eq (BitVec.ofNat 32 (i 0).val) 0#32)) 0#32) = 1#1

/-- It holds at point 0 and nowhere else. -/
theorem firstPoint_iff : ∀ t : Fin cfg0.N, firstPoint (grid0.coords t) ↔ t.val = 0 :=
  (by decide +kernel : ∀ t : Fin grid0.N, firstPoint (grid0.coords t) ↔ t.val = 0)

/-! ## The memrefs the body is called with -/

abbrev stg0 (t : Fin cfg0.N) : Memref sig .tc .vmem S10000x256 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S256x256 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S1x256 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S200x10000 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S200x10000 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S400x256 .f32 := win0_5.stage (cfg0.slots t 5)
abbrev stg5_whole (t : Fin cfg0.N) : (stg5 t).IsWhole := hstage0_5 ((cfg0.slots t 5).cast nbuf0_5)
/-- The scratch that keeps h = x · W between points. -/
abbrev carried : Memref sig .tc .vmem S10000x256 .bf16 := Memref.whole cc0_scratch0
/-- Views through which the contents of the result's staging buffer and of the scratch are stated. -/
abbrev outView : View sig .tc .vmem S400x256 .f32 := (Memref.whole cc0_stg5_0 : Memref sig .tc .vmem S400x256 .f32).view
abbrev carriedView : View sig .tc .vmem S10000x256 .bf16 := carried.view

/-- The scoped buffers that are no staging buffer are the scratch alone, owned at some contents. -/
theorem scratch_alone (c : Dev nD) :
    (Pipeline.scopedRest (Ix := Unit) (Name := ℕ) (U := UR sig nD τ) (Lvl := ℕ) (Val := Elt F) spec0 c : sProp 𝕄)
      = iprop((∃ d, owns (c : Thread nD τ) carried fullShare d)) := by
  rw [scopedRest0_eq]; simp only [carried, owns_whole]; try rfl

/-! ## No window is ever idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-! ## An input's staging buffer holds its block at every point, fetched there or not -/

section Found
variable {c : Dev nD} (dat : Dat τ (Elt F) Unit ℕ (UR sig nD τ) ℕ cfg0 c)

theorem found0 (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3 (hA : dat.A 3 = atEntry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem found4 (hA : dat.A 4 = atEntry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
end Found

end Cert.KernelIdeal.Hand

end
-- ==== Proof.BodyLaterI.lean ====
/-
  The body at a point that is not the first.  The branch that fills the scratch is skipped; the body reads the
  scratch (h, as the point before left it), b and the two row blocks of adj, and stores the two halves of the
  result block.  The run is symbolic: the two stores are found as pieces of the result's staging buffer, last
  first, and the scratch is handed back as it was found.
-/
import proofs.«150722_g60902636257280_cont_9to1c4b_369_12_alg».proof.Proof.FrameDefsI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a later point, on whole staging memrefs — the inputs' at their contents, the result's at anything, the
    scratch at contents `xs` — the body runs to its end holding the inputs and the scratch as they were and the
    result's buffer with the two stores written over it. -/
noncomputable def laterRun (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : ¬firstPoint i)
    (x0 : Vec F S10000x256 .f32) (x1 : Vec F S256x256 .f32) (x2 : Vec F S1x256 .f32) (x3 : Vec F S200x10000 .f32) (x4 : Vec F S200x10000 .f32) (xs : Vec F S10000x256 .bf16) :
    { L5 : List (View.Piece (Elt F) S400x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.KernelIdeal.Hand

end
-- ==== Proof.BodyFirstI.lean ====
/-
  The body at the first point.  The branch that fills the scratch is taken: the body reads x and W, forms
  h = x · W and stores it over the whole scratch (whatever the scratch held); it then goes on as at any other
  point, reading h back.  The run finds the store into the scratch and the two stores into the result's staging
  buffer as pieces.
-/
import proofs.«150722_g60902636257280_cont_9to1c4b_369_12_alg».proof.Proof.BodyLaterI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point, on whole staging memrefs — the inputs' at their contents, the result's and the scratch
    at anything — the body runs to its end holding the inputs as they were, the scratch with its one store written
    and the result's buffer with its two stores written. -/
noncomputable def firstRun (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) :
    Σ' (L5 : List (View.Piece (Elt F) S400x256 .f32)), { LS : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.KernelIdeal.Hand

end
-- ==== Proof.FrameI.lean ====
/-
  The frame of the fused graph-convolution kernel: every execution of @main ends, faults nowhere and leaves
  x, adj, W and b as they were; and the result array ends at what the 25 write-backs leave.

  What travels between grid points is the scratch: before the first point it holds anything; after it, and so
  before and after every later point, it holds what the first point stored (`keptH`: h = x · W as the body
  computes it).  The result's staging buffer after point t holds the two stores of that point (`resultAt`): at
  the first point computed from the freshly stored h, at a later point from the h found in the scratch.  adj is
  read through two windows, so each holds one half of its ownership.
-/
import proofs.«150722_g60902636257280_cont_9to1c4b_369_12_alg».proof.Proof.BodyFirstI
import proofs.«150722_g60902636257280_cont_9to1c4b_369_12_alg».proof.Proof.LibSharedCarry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores of one point cover -/

/-- The two stores of the first point tile the 400-row block of the result. -/
theorem firstCover5 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) (y : S400x256.Idx) :
    ∃ pc ∈ (firstRun c i arg1 harg1 arg2 harg2 arg3 harg3 arg4 harg4 arg5 harg5 arg6 harg6 arg7 harg7 hc x0 x1 x2 x3 x4).1, y ∈ pc.1.set :=
  View.cover_of_tiledL (firstRun c i arg1 harg1 arg2 harg2 arg3 harg3 arg4 harg4 arg5 harg5 arg6 harg6 arg7 harg7 hc x0 x1 x2 x3 x4).1 S200x256.size (by sl_kernel_rfl) y

/-- The one store into the scratch at the first point covers it. -/
theorem firstCoverS (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) (y : S10000x256.Idx) :
    ∃ pc ∈ (firstRun c i arg1 harg1 arg2 harg2 arg3 harg3 arg4 harg4 arg5 harg5 arg6 harg6 arg7 harg7 hc x0 x1 x2 x3 x4).2.1, y ∈ pc.1.set :=
  View.cover_of_tiledL (firstRun c i arg1 harg1 arg2 harg2 arg3 harg3 arg4 harg4 arg5 harg5 arg6 harg6 arg7 harg7 hc x0 x1 x2 x3 x4).2.1 S10000x256.size (by sl_kernel_rfl) y

/-- The two stores of a later point tile the block of the result. -/
theorem laterCover5 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : ¬firstPoint i)
    (x0 : Vec F S10000x256 .f32) (x1 : Vec F S256x256 .f32) (x2 : Vec F S1x256 .f32) (x3 : Vec F S200x10000 .f32) (x4 : Vec F S200x10000 .f32) (xs : Vec F S10000x256 .bf16) (y : S400x256.Idx) :
    ∃ pc ∈ (laterRun c i arg1 harg1 arg2 harg2 arg3 harg3 arg4 harg4 arg5 harg5 arg6 harg6 arg7 harg7 hc x0 x1 x2 x3 x4 xs).1, y ∈ pc.1.set :=
  View.cover_of_tiledL (laterRun c i arg1 harg1 arg2 harg2 arg3 harg3 arg4 harg4 arg5 harg5 arg6 harg6 arg7 harg7 hc x0 x1 x2 x3 x4 xs).1 S200x256.size (by sl_kernel_rfl) y

/-- What the first point leaves in the result's staging buffer: its stores read back. -/
def firstOut (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) : Vec F S400x256 .f32 :=
  outView.read (Elt F) (outView.writes (Elt F) outView.junk (firstRun c i arg1 harg1 arg2 harg2 arg3 harg3 arg4 harg4 arg5 harg5 arg6 harg6 arg7 harg7 hc x0 x1 x2 x3 x4).1)

/-- What the first point leaves in the scratch: its store read back. -/
def firstKeep (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) : Vec F S10000x256 .bf16 :=
  carriedView.read (Elt F) (carriedView.writes (Elt F) carriedView.junk (firstRun c i arg1 harg1 arg2 harg2 arg3 harg3 arg4 harg4 arg5 harg5 arg6 harg6 arg7 harg7 hc x0 x1 x2 x3 x4).2.1)

/-- What a later point leaves in the result's staging buffer, the scratch holding `xs`. -/
def laterOut (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : ¬firstPoint i)
    (x0 : Vec F S10000x256 .f32) (x1 : Vec F S256x256 .f32) (x2 : Vec F S1x256 .f32) (x3 : Vec F S200x10000 .f32) (x4 : Vec F S200x10000 .f32) (xs : Vec F S10000x256 .bf16) : Vec F S400x256 .f32 :=
  outView.read (Elt F) (outView.writes (Elt F) outView.junk (laterRun c i arg1 harg1 arg2 harg2 arg3 harg3 arg4 harg4 arg5 harg5 arg6 harg6 arg7 harg7 hc x0 x1 x2 x3 x4 xs).1)

/-! ## Point by point -/

/-- The first grid point. -/
abbrev t₀ : Fin cfg0.N := ⟨0, by rw [show cfg0.N = 25 from N_0]; omega⟩

/-- What the scratch holds from the first point on. -/
def keptH (c : Dev nD) : Vec F S10000x256 .bf16 :=
  firstKeep c (grid0.coords t₀) (stg0 t₀) (stg0_whole t₀) (stg1 t₀) (stg1_whole t₀) (stg2 t₀) (stg2_whole t₀) (stg3 t₀) (stg3_whole t₀) (stg4 t₀) (stg4_whole t₀) (stg5 t₀) (stg5_whole t₀) carried (Memref.isWhole_whole _) ((firstPoint_iff t₀).mpr rfl) (blockAt m c 0 t₀) (blockAt m c 1 t₀) (blockAt m c 2 t₀) (blockAt m c 3 t₀) (blockAt m c 4 t₀)

/-- What the result's staging buffer holds after the body at point `t`. -/
def resultAt (c : Dev nD) (t : Fin cfg0.N) : Vec F S400x256 .f32 :=
  if h : t.val = 0 then
    firstOut c (grid0.coords t) (stg0 t) (stg0_whole t) (stg1 t) (stg1_whole t) (stg2 t) (stg2_whole t) (stg3 t) (stg3_whole t) (stg4 t) (stg4_whole t) (stg5 t) (stg5_whole t) carried (Memref.isWhole_whole _) ((firstPoint_iff t).mpr h) (blockAt m c 0 t) (blockAt m c 1 t) (blockAt m c 2 t) (blockAt m c 3 t) (blockAt m c 4 t)
  else
    laterOut c (grid0.coords t) (stg0 t) (stg0_whole t) (stg1 t) (stg1_whole t) (stg2 t) (stg2_whole t) (stg3 t) (stg3_whole t) (stg4 t) (stg4_whole t) (stg5 t) (stg5_whole t) carried (Memref.isWhole_whole _) (fun hh => h ((firstPoint_iff t).mp hh)) (blockAt m c 0 t) (blockAt m c 1 t) (blockAt m c 2 t) (blockAt m c 3 t) (blockAt m c 4 t) (keptH m c)

theorem resultAt_first (c : Dev nD) (t : Fin cfg0.N) (h : t.val = 0) :
    resultAt m c t = firstOut c (grid0.coords t) (stg0 t) (stg0_whole t) (stg1 t) (stg1_whole t) (stg2 t) (stg2_whole t) (stg3 t) (stg3_whole t) (stg4 t) (stg4_whole t) (stg5 t) (stg5_whole t) carried (Memref.isWhole_whole _) ((firstPoint_iff t).mpr h) (blockAt m c 0 t) (blockAt m c 1 t) (blockAt m c 2 t) (blockAt m c 3 t) (blockAt m c 4 t) := by
  unfold resultAt; rw [dif_pos h]

theorem resultAt_later (c : Dev nD) (t : Fin cfg0.N) (h : ¬t.val = 0) :
    resultAt m c t = laterOut c (grid0.coords t) (stg0 t) (stg0_whole t) (stg1 t) (stg1_whole t) (stg2 t) (stg2_whole t) (stg3 t) (stg3_whole t) (stg4 t) (stg4_whole t) (stg5 t) (stg5_whole t) carried (Memref.isWhole_whole _) (fun hh => h ((firstPoint_iff t).mp hh)) (blockAt m c 0 t) (blockAt m c 1 t) (blockAt m c 2 t) (blockAt m c 3 t) (blockAt m c 4 t) (keptH m c) := by
  unfold resultAt; rw [dif_neg h]

/-- The invariant before position `n`: before the first point the scratch at anything, afterwards at `keptH`. -/
def carriedAt (c : Dev nD) : ℕ → sProp 𝕄
  | 0 => Pipeline.scopedRest (Ix := Unit) (Name := ℕ) (U := UR sig nD τ) (Lvl := ℕ) (Val := Elt F) spec0 c
  | _ + 1 => owns (c : Thread nD τ) carried fullShare (keptH m c)

theorem carriedAt_pos (c : Dev nD) (n : ℕ) (hn : n ≠ 0) :
    carriedAt m c n = owns (c : Thread nD τ) carried fullShare (keptH m c) := by
  cases n with
  | zero => exact absurd rfl hn
  | succ n => rfl

/-! ## The proof data -/

/-- The arrays as the region finds them; after the body each input's buffer at its block and the result's at
    `resultAt`; the invariant `carriedAt`; nothing owed; adj's ownership halved between its two windows. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => resultAt m c t
  Φ t := carriedAt m c t.val
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = atEntry m c (Pipeline.arrRef spec0 w) := by
  dsimp only [dats]

theorem Phi_castSucc (c : Dev nD) (t : Fin cfg0.N) : (dats m 0 c).Φ t.castSucc = carriedAt m c t.val := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = resultAt m c t := by dsimp only [dats]

theorem before0 (c : Dev nD) (t : Fin cfg0.N) (d) : (dats m 0 c).before 0 t d = blockAt m c 0 t :=
  found0 m (dats m 0 c) (A_eq m c 0) (after0 m c) t d
theorem before1 (c : Dev nD) (t : Fin cfg0.N) (d) : (dats m 0 c).before 1 t d = blockAt m c 1 t :=
  found1 m (dats m 0 c) (A_eq m c 1) (after1 m c) t d
theorem before2 (c : Dev nD) (t : Fin cfg0.N) (d) : (dats m 0 c).before 2 t d = blockAt m c 2 t :=
  found2 m (dats m 0 c) (A_eq m c 2) (after2 m c) t d
theorem before3 (c : Dev nD) (t : Fin cfg0.N) (d) : (dats m 0 c).before 3 t d = blockAt m c 3 t :=
  found3 m (dats m 0 c) (A_eq m c 3) (after3 m c) t d
theorem before4 (c : Dev nD) (t : Fin cfg0.N) (d) : (dats m 0 c).before 4 t d = blockAt m c 4 t :=
  found4 m (dats m 0 c) (A_eq m c 4) (after4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (stg0 t) fullShare (blockAt m c 0 t) := by
  unfold Dat.leavesExact; rw [live0 t, after0]
theorem leaves1 (c : Dev nD) (t : Fin cfg0.N) : (dats m 0 c).leavesExact 1 t = owns (c : Thread nD τ) (stg1 t) fullShare (blockAt m c 1 t) := by
  unfold Dat.leavesExact; rw [live1 t, after1]
theorem leaves2 (c : Dev nD) (t : Fin cfg0.N) : (dats m 0 c).leavesExact 2 t = owns (c : Thread nD τ) (stg2 t) fullShare (blockAt m c 2 t) := by
  unfold Dat.leavesExact; rw [live2 t, after2]
theorem leaves3 (c : Dev nD) (t : Fin cfg0.N) : (dats m 0 c).leavesExact 3 t = owns (c : Thread nD τ) (stg3 t) fullShare (blockAt m c 3 t) := by
  unfold Dat.leavesExact; rw [live3 t, after3]
theorem leaves4 (c : Dev nD) (t : Fin cfg0.N) : (dats m 0 c).leavesExact 4 t = owns (c : Thread nD τ) (stg4 t) fullShare (blockAt m c 4 t) := by
  unfold Dat.leavesExact; rw [live4 t, after4]
theorem leaves5 (c : Dev nD) (t : Fin cfg0.N) : (dats m 0 c).leavesExact 5 t = owns (c : Thread nD τ) (stg5 t) fullShare (resultAt m c t) := by
  unfold Dat.leavesExact; rw [live5 t, after5]

end Cert.KernelIdeal.Hand

end
-- ==== Proof.ObligI.lean ====
/-
  The body's obligation point by point.  At the first point the invariant hands the body the scratch at
  anything and takes it back at what the point stored; at a later point it hands it the scratch at `keptH` and
  takes it back unchanged.  The inputs' buffers hold their blocks throughout; the result's buffer ends with the
  point's two stores.
-/
import proofs.«150722_g60902636257280_cont_9to1c4b_369_12_alg».proof.Proof.FrameI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a later point. -/
theorem sound_later (c : Dev nD) (t : Fin cfg0.N) (hz : ¬t.val = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [leaves0, leaves1, leaves2, leaves3, leaves4, leaves5]
  rw [show (dats m 0 c).Φ t.succ = carriedAt m c (t.val + 1) from rfl, carriedAt_pos m c (t.val + 1) (Nat.succ_ne_zero _)]
  rw [Phi_castSucc, carriedAt_pos m c t.val hz, resultAt_later m c t hz]
  unfold laterOut
  iintro ⟨HS, Ho, ⟨%d0, H0⟩, ⟨%d1, H1⟩, ⟨%d2, H2⟩, ⟨%d3, H3⟩, ⟨%d4, H4⟩, ⟨%d5, H5⟩⟩
  iapply ((laterRun (F := F) c (grid0.coords t) (stg0 t) (stg0_whole t) (stg1 t) (stg1_whole t) (stg2 t) (stg2_whole t) (stg3 t) (stg3_whole t) (stg4 t) (stg4_whole t) (stg5 t) (stg5_whole t) carried (Memref.isWhole_whole _) (fun hh => hz ((firstPoint_iff t).mp hh)) (blockAt m c 0 t) (blockAt m c 1 t) (blockAt m c 2 t) (blockAt m c 3 t) (blockAt m c 4 t) (keptH m c)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, HS⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact View.read_writes_of_cover _ _ _ _ _ (laterCover5 (F := F) c (grid0.coords t) (stg0 t) (stg0_whole t) (stg1 t) (stg1_whole t) (stg2 t) (stg2_whole t) (stg3 t) (stg3_whole t) (stg4 t) (stg4_whole t) (stg5 t) (stg5_whole t) carried (Memref.isWhole_whole _) (fun hh => hz ((firstPoint_iff t).mp hh)) (blockAt m c 0 t) (blockAt m c 1 t) (blockAt m c 2 t) (blockAt m c 3 t) (blockAt m c 4 t) (keptH m c))

set_option maxHeartbeats 1600000 in
/-- The body at the first point. -/
theorem sound_first (c : Dev nD) :
    bodyPre m c t₀ ⊢ wp frame (wpE (defs₀ (F := F)) Variants.none c none) Set.univ (bodyAt0 t₀) (fun _ => bodyPost m c t₀) := by
  unfold bodyPre bodyPost bodyAt0
  simp only [before0, before1, before2, before3, before4]
  rw [show (dats m 0 c).owesAt () (t₀ : Fin cfg0.N).succ = (dats m 0 c).owesAt () (t₀ : Fin cfg0.N).castSucc from rfl]
  rw [leaves0, leaves1, leaves2, leaves3, leaves4, leaves5]
  rw [show (dats m 0 c).Φ (t₀ : Fin cfg0.N).succ = carriedAt m c ((t₀ : Fin cfg0.N).val + 1) from rfl, carriedAt_pos m c ((t₀ : Fin cfg0.N).val + 1) (Nat.succ_ne_zero _)]
  rw [Phi_castSucc]
  rw [show carriedAt m c (t₀ : Fin cfg0.N).val = Pipeline.scopedRest (Ix := Unit) (Name := ℕ) (U := UR sig nD τ) (Lvl := ℕ) (Val := Elt F) spec0 c from rfl, scratch_alone]
  rw [resultAt_first m c t₀ rfl]
  unfold firstOut keptH firstKeep
  iintro ⟨⟨%ds, HS⟩, Ho, ⟨%d0, H0⟩, ⟨%d1, H1⟩, ⟨%d2, H2⟩, ⟨%d3, H3⟩, ⟨%d4, H4⟩, ⟨%d5, H5⟩⟩
  iapply ((firstRun (F := F) c (grid0.coords t₀) (stg0 t₀) (stg0_whole t₀) (stg1 t₀) (stg1_whole t₀) (stg2 t₀) (stg2_whole t₀) (stg3 t₀) (stg3_whole t₀) (stg4 t₀) (stg4_whole t₀) (stg5 t₀) (stg5_whole t₀) carried (Memref.isWhole_whole _) ((firstPoint_iff t₀).mpr rfl) (blockAt m c 0 t₀) (blockAt m c 1 t₀) (blockAt m c 2 t₀) (blockAt m c 3 t₀) (blockAt m c 4 t₀)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexists _; iexact HS
  iintro ⟨H0, H1, H2, H3, H4, ⟨%e5, H5⟩, ⟨%es, HS⟩⟩
  isplitl [HS]
  · unfold owns; iexists _; isplitr
    swap; · iexact HS
    ipureintro
    exact View.read_writes_of_cover _ _ _ _ _ (firstCoverS (F := F) c (grid0.coords t₀) (stg0 t₀) (stg0_whole t₀) (stg1 t₀) (stg1_whole t₀) (stg2 t₀) (stg2_whole t₀) (stg3 t₀) (stg3_whole t₀) (stg4 t₀) (stg4_whole t₀) (stg5 t₀) (stg5_whole t₀) carried (Memref.isWhole_whole _) ((firstPoint_iff t₀).mpr rfl) (blockAt m c 0 t₀) (blockAt m c 1 t₀) (blockAt m c 2 t₀) (blockAt m c 3 t₀) (blockAt m c 4 t₀))
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact View.read_writes_of_cover _ _ _ _ _ (firstCover5 (F := F) c (grid0.coords t₀) (stg0 t₀) (stg0_whole t₀) (stg1 t₀) (stg1_whole t₀) (stg2 t₀) (stg2_whole t₀) (stg3 t₀) (stg3_whole t₀) (stg4 t₀) (stg4_whole t₀) (stg5 t₀) (stg5_whole t₀) carried (Memref.isWhole_whole _) ((firstPoint_iff t₀).mpr rfl) (blockAt m c 0 t₀) (blockAt m c 1 t₀) (blockAt m c 2 t₀) (blockAt m c 3 t₀) (blockAt m c 4 t₀))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · obtain rfl : t = t₀ := Fin.ext hz
    exact sound_first m c
  · exact sound_later m c t hz

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunI.lean ====
/-
  The launch.  The scratch at anything is what the launch hands the body before the first point, and after the
  last point its contents are forgotten.  The five distinct buffers behind the six windows make up the windows'
  arrays: adj's buffer is divided into two halves, one for each of the two windows that read it.  Then every
  execution of @main ends, faults nowhere, leaves x, adj, W and b as they were, and leaves the result array at
  what the write-backs of the 25 points put there.
-/
import proofs.«150722_g60902636257280_cont_9to1c4b_369_12_alg».proof.Proof.ObligI
import proofs.«150722_g60902636257280_cont_9to1c4b_369_12_alg».proof.Proof.LibSharedCarry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant is the scratch at anything: what the launch hands over. -/
theorem enter (c : Dev nD) :
    Pipeline.scopedRest (Ix := Unit) (Name := ℕ) (U := UR sig nD τ) (Lvl := ℕ) (Val := Elt F) spec0 c ⊢ (dats m 0 c).Φ 0 :=
  Idealize.SL.BI.Entails.refl _

/-- After the last point the scratch's contents are forgotten. -/
theorem leave (c : Dev nD) :
    (dats m 0 c).Φ (Fin.last cfg0.N)
      ⊢ Pipeline.scopedRest (Ix := Unit) (Name := ℕ) (U := UR sig nD τ) (Lvl := ℕ) (Val := Elt F) spec0 c := by
  rw [show (dats m 0 c).Φ (Fin.last cfg0.N) = carriedAt m c cfg0.N from rfl,
    carriedAt_pos m c _ (by rw [show cfg0.N = 25 from N_0]; omega), scratch_alone]
  iintro H
  iexists _; iexact H

/-- The distinct buffers behind the windows, one by one: x, W, b, adj and the result. -/
theorem buffers_listed (c : Dev nD) :
    (Pipeline.arrBufs spec0 c (atEntry m c) : sProp 𝕄)
      = iprop(((c.tc : Thread nD τ).loc main_arg0 ↦{fullShare} atEntry m c main_arg0)
          ∗ ((c.tc : Thread nD τ).loc main_arg2 ↦{fullShare} atEntry m c main_arg2)
          ∗ ((c.tc : Thread nD τ).loc main_arg3 ↦{fullShare} atEntry m c main_arg3)
          ∗ ((c.tc : Thread nD τ).loc main_arg1 ↦{fullShare} atEntry m c main_arg1)
          ∗ ((c.tc : Thread nD τ).loc main_v0 ↦{fullShare} atEntry m c main_v0)) := by
  unfold Pipeline.arrBufs
  exact bigSep_eq_bigSepL_of_eq [main_arg0, main_arg2, main_arg3, main_arg1, main_v0] (by decide) (by decide) _

/-- They make up the windows' arrays: adj's buffer in two halves. -/
theorem arrays_from_buffers (c : Dev nD) :
    (Pipeline.arrBufs spec0 c (atEntry m c) : sProp 𝕄) ⊢ (dats m 0 c).arrays ((dats m 0 c).arrAt · 0) := by
  rw [buffers_listed]
  unfold Dat.arrays
  rw [bigSep_W0]
  have e0 : ((cfg0.win 0).arr.view.loc (c.tc : Thread nD τ) ↦[(cfg0.win 0).arr.view.set]{(dats m 0 c).share 0} (dats m 0 c).arrAt 0 0 : sProp 𝕄)
      = ((c.tc : Thread nD τ).loc main_arg0 ↦{fullShare} atEntry m c main_arg0) := by
    rw [(arr_whole0 0).set_eq_univ]; rfl
  have e1 : ((cfg0.win 1).arr.view.loc (c.tc : Thread nD τ) ↦[(cfg0.win 1).arr.view.set]{(dats m 0 c).share 1} (dats m 0 c).arrAt 1 0 : sProp 𝕄)
      = ((c.tc : Thread nD τ).loc main_arg2 ↦{fullShare} atEntry m c main_arg2) := by
    rw [(arr_whole0 1).set_eq_univ]; rfl
  have e2 : ((cfg0.win 2).arr.view.loc (c.tc : Thread nD τ) ↦[(cfg0.win 2).arr.view.set]{(dats m 0 c).share 2} (dats m 0 c).arrAt 2 0 : sProp 𝕄)
      = ((c.tc : Thread nD τ).loc main_arg3 ↦{fullShare} atEntry m c main_arg3) := by
    rw [(arr_whole0 2).set_eq_univ]; rfl
  have e3 : ((cfg0.win 3).arr.view.loc (c.tc : Thread nD τ) ↦[(cfg0.win 3).arr.view.set]{(dats m 0 c).share 3} (dats m 0 c).arrAt 3 0 : sProp 𝕄)
      = ((c.tc : Thread nD τ).loc main_arg1 ↦{fullShare.left} atEntry m c main_arg1) := by
    rw [(arr_whole0 3).set_eq_univ]; rfl
  have e4 : ((cfg0.win 4).arr.view.loc (c.tc : Thread nD τ) ↦[(cfg0.win 4).arr.view.set]{(dats m 0 c).share 4} (dats m 0 c).arrAt 4 0 : sProp 𝕄)
      = ((c.tc : Thread nD τ).loc main_arg1 ↦{fullShare.right} atEntry m c main_arg1) := by
    rw [(arr_whole0 4).set_eq_univ]; rfl
  have e5 : ((cfg0.win 5).arr.view.loc (c.tc : Thread nD τ) ↦[(cfg0.win 5).arr.view.set]{(dats m 0 c).share 5} (dats m 0 c).arrAt 5 0 : sProp 𝕄)
      = ((c.tc : Thread nD τ).loc main_v0 ↦{fullShare} atEntry m c main_v0) := by
    rw [(arr_whole0 5).set_eq_univ]; rfl
  rw [e0, e1, e2, e3, e4, e5]
  iintro ⟨H0, H2, H3, H1, H5⟩
  ihave H1' := (pointsTo_share (PosShare.mem_left_op_right fullShare)).1 $$ H1
  icases H1' with ⟨H1l, H1r⟩
  isplitl [H0]; · iexact H0
  isplitl [H2]; · iexact H2
  isplitl [H3]; · iexact H3
  isplitl [H1l]; · iexact H1l
  isplitl [H1r]; · iexact H1r
  iexact H5

set_option backward.isDefEq.respectTransparency.types false in
/-- Every weakly fair execution of @main ends, nothing faulting, each window's array at what the write-backs
    leave and nothing else of the unscoped buffers changed. -/
theorem run_main : θ_run defs (onTc (τ := τ) (main (F := F))) (s₀ m ρ) (Pipeline.FramePost cfgs (dats m) 0 (atEntry m)) :=
  Cert.LibSharedCarry.θ_run_frame_shared_carry cfgs (dats m) (0 : Fin 1) defs₀ Variants.none cellOf_inj winFacts₀0 block_pos0 arr_whole0 stage_whole0
    m ρ main (fun c => (body_obligation m c).loose) (fun _ _ => rfl) (atEntry m) (reaches_region m Variants.none)
    (arrays_from_buffers m) (enter m) (leave m)

/-- The four argument arrays end as they began: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans (A_eq m c 0)),
     ((h c).1 3).trans (((dats m 0 c).arrAt_in 3 rfl _).trans (A_eq m c 3)),
     ((h c).1 1).trans (((dats m 0 c).arrAt_in 1 rfl _).trans (A_eq m c 1)),
     ((h c).1 2).trans (((dats m 0 c).arrAt_in 2 rfl _).trans (A_eq m c 2))⟩) (run_main m ρ)

end Cert.KernelIdeal.Hand

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.PayloadI.lean ====
/-
  The body's three stored values at the ideal values, entry by entry.

  What the first point stores in the scratch is h = x · W: entry (p, q) is Σ_j x(p, j) · W(j, q) — the two
  narrowings to bf16 and the narrowing of the product change nothing at the ideal values, and the matrix unit's
  product into the zero accumulator is the plain sum.  What every point stores in a half of the result block is
  a · h + b for its 200-row block a of adj: entry (p, q) is Σ_k a(p, k) · h(k, q) + b(0, q).
-/
import proofs.«150722_g60902636257280_cont_9to1c4b_369_12_alg».proof.Proof.Gen.KernelIdeal.Skeleton
import proofs.«150722_g60902636257280_cont_9to1c4b_369_12_alg».proof.Proof.LibMatmulZero
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-- The result's axis 0 is the left operand's axis 0, for x · W … -/
theorem xw_l0 (i : S10000x256.Idx) (c : dot_S10000x256_S256x256_S10000x256_1_0_0_1_n_n.contr.Idx) :
    (dot_S10000x256_S256x256_S10000x256_1_0_0_1_n_n.lhsIdx i c 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
/-- … and its axis 1 the right operand's axis 1. -/
theorem xw_r1 (i : S10000x256.Idx) (c : dot_S10000x256_S256x256_S10000x256_1_0_0_1_n_n.contr.Idx) :
    (dot_S10000x256_S256x256_S10000x256_1_0_0_1_n_n.rhsIdx i c 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl
/-- The same for a · h. -/
theorem ah_l0 (i : S200x256.Idx) (c : dot_S200x10000_S10000x256_S200x256_1_0_0_1_n_n.contr.Idx) :
    (dot_S200x10000_S10000x256_S200x256_1_0_0_1_n_n.lhsIdx i c 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl
theorem ah_r1 (i : S200x256.Idx) (c : dot_S200x10000_S10000x256_S200x256_1_0_0_1_n_n.contr.Idx) :
    (dot_S200x10000_S10000x256_S200x256_1_0_0_1_n_n.rhsIdx i c 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl

/-- What the first point stores in the scratch: x · W. -/
theorem stored_h (x : Vec Ideal S10000x256 .f32) (W : Vec Ideal S256x256 .f32) (p : Fin 10000) (q : Fin 256) :
    k0_pay1 (F := Ideal) x W (ix2 p q) = ∑ j : Fin 256, x (ix2 p j) * W (ix2 j q) := by
  unfold k0_pay1
  refine (congrFun (shapeCast_self _ _) (ix2 p q)).trans ?_
  exact Cert.LibMatmulZero.matmul_zero_ix2 dot_S10000x256_S256x256_S10000x256_1_0_0_1_n_n rfl rfl rfl rfl xw_l0 xw_r1 none
    (truncf .bf16 x bitsLt_bf16_f32) (truncf .bf16 W bitsLt_bf16_f32) p q

/-- The row b repeated down 200 rows, read at an entry. -/
theorem bias_row (b : Vec Ideal S1x256 .f32) (p : Fin 200) (q : Fin 256) :
    broadcastTo S200x256 b broadcasts_S1x256_S200x256 (ix2 p q) = b (ix2 (0 : Fin 1) q) :=
  broadcastTo_apply b broadcasts_S1x256_S200x256 (ix2 p q) (ix2 (0 : Fin 1) q) (fun a => by
    match a with
    | ⟨0, _⟩ => show 0 = if (1 : Nat) = 1 then 0 else p.val; rw [if_pos rfl]
    | ⟨1, _⟩ => show q.val = if (256 : Nat) = 1 then 0 else q.val; rw [if_neg (by decide)])

/-- What a point stores in the upper half of the result block: a · h + b. -/
theorem stored_upper (h : Vec Ideal S10000x256 .bf16) (b : Vec Ideal S1x256 .f32) (a : Vec Ideal S200x10000 .f32)
    (p : Fin 200) (q : Fin 256) :
    k0_pay2 (F := Ideal) h b a (ix2 p q) = (∑ k : Fin 10000, a (ix2 p k) * h (ix2 k q)) + b (ix2 (0 : Fin 1) q) := by
  unfold k0_pay2
  refine congrArg₂ (· + ·) ?_ (bias_row b p q)
  exact Cert.LibMatmulZero.matmul_zero_ix2 dot_S200x10000_S10000x256_S200x256_1_0_0_1_n_n rfl rfl rfl rfl ah_l0 ah_r1 none
    (truncf .bf16 a bitsLt_bf16_f32) h p q

/-- And in the lower half: the same of its own block of adj. -/
theorem stored_lower (h : Vec Ideal S10000x256 .bf16) (b : Vec Ideal S1x256 .f32) (a : Vec Ideal S200x10000 .f32)
    (p : Fin 200) (q : Fin 256) :
    k0_pay3 (F := Ideal) h b a (ix2 p q) = (∑ k : Fin 10000, a (ix2 p k) * h (ix2 k q)) + b (ix2 (0 : Fin 1) q) := by
  unfold k0_pay3
  refine congrArg₂ (· + ·) ?_ (bias_row b p q)
  exact Cert.LibMatmulZero.matmul_zero_ix2 dot_S200x10000_S10000x256_S200x256_1_0_0_1_n_n rfl rfl rfl rfl ah_l0 ah_r1 none
    (truncf .bf16 a bitsLt_bf16_f32) h p q

end Cert.KernelIdeal.Payload

end
-- ==== Proof.PiecesI.lean ====
/-
  What the stores of one point leave, read back as values at the ideal values.

  The scratch after the first point is the one value stored there, x · W as the body computes it.  The result's
  staging buffer after any point is its two stores side by side: rows 0 .. 199 from the first row block of adj,
  rows 200 .. 399 from the second, each a · h + b with h what the scratch holds — at the first point what was just
  stored there and read back, at a later one what was found there.
-/
import proofs.«150722_g60902636257280_cont_9to1c4b_369_12_alg».proof.Proof.FrameI
import proofs.«150722_g60902636257280_cont_9to1c4b_369_12_alg».proof.Proof.PayloadI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := funext fun a => by fin_cases a <;> rfl

/-- The scratch after the first point holds the stored product. -/
theorem firstKeep_eq (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec F S10000x256 .f32) (x1 : Vec F S256x256 .f32) (x2 : Vec F S1x256 .f32) (x3 : Vec F S200x10000 .f32) (x4 : Vec F S200x10000 .f32) : firstKeep c i arg1 harg1 arg2 harg2 arg3 harg3 arg4 harg4 arg5 harg5 arg6 harg6 arg7 harg7 hc x0 x1 x2 x3 x4 = k0_pay1 x0 x1 := by
  unfold firstKeep
  rw [View.read_writes_eq_canon _ _ _ (firstCoverS c i arg1 harg1 arg2 harg2 arg3 harg3 arg4 harg4 arg5 harg5 arg6 harg6 arg7 harg7 hc x0 x1 x2 x3 x4)]
  unfold firstRun
  dsimp only
  sl_unfold_words
  rw [View.canon_unit_zero zeros2]
  simp only [View.readAt_eq_ld, harg1.read_unread, harg2.read_unread, View.ld_unit_zero (S := S10000x256) zeros2, View.ld_unit_zero (S := S256x256) zeros2]

/-- The two halves of a result block from what the scratch holds, b, and the two row blocks of adj. -/
def twoHalves (h : Vec Ideal S10000x256 .bf16) (b : Vec Ideal S1x256 .f32) (a₁ a₂ : Vec Ideal S200x10000 .f32) :
    S400x256.Idx → EReal := fun y =>
  if hlt : (y 0).val < 200 then
    (∑ k : Fin 10000, a₁ (ix2 (⟨(y 0).val, hlt⟩ : Fin 200) k) * h (ix2 k (y 1))) + b (ix2 (0 : Fin 1) (y 1))
  else
    (∑ k : Fin 10000, a₂ (ix2 (⟨(y 0).val - 200, by have h400 : (y 0).val < 400 := (y 0).isLt; omega⟩ : Fin 200) k) * h (ix2 k (y 1))) + b (ix2 (0 : Fin 1) (y 1))

/-- Two stores, the later one into rows 200 .. 399 and the earlier one into rows 0 .. 199, leave `twoHalves`. -/
theorem halves_canon (h : Vec Ideal S10000x256 .bf16) (b : Vec Ideal S1x256 .f32) (a₁ a₂ : Vec Ideal S200x10000 .f32)
    (L : List (View.Piece (Elt Ideal) S400x256 .f32))
    (hL : L = [⟨Rect.unit (s := S400x256) ![200, 0] S200x256.size inb_S400x256_S200x256_200_0, k0_pay3 (F := Ideal) h b a₂⟩,
               ⟨Rect.unit (s := S400x256) ![0, 0] S200x256.size inb_S400x256_S200x256_0_0, k0_pay2 (F := Ideal) h b a₁⟩])
    (hcov : ∀ y, ∃ p ∈ L, y ∈ p.1.set) : View.canon L = twoHalves h b a₁ a₂ := by
  funext y
  refine View.canon_apply_of_pieces (twoHalves h b a₁ a₂) L ?_ y (hcov y)
  subst hL
  intro p hp x
  simp only [List.mem_cons, List.mem_nil_iff, or_false] at hp
  rcases hp with rfl | rfl
  · obtain ⟨r, q, rfl⟩ : ∃ (r : Fin 200) (q : Fin 256), x = ix2 r q := ⟨x 0, x 1, eq_ix2 x⟩
    show k0_pay3 (F := Ideal) h b a₂ (ix2 r q) = _
    rw [Payload.stored_lower]
    unfold twoHalves
    have e0 : (((Rect.unit (s := S400x256) ![200, 0] S200x256.size inb_S400x256_S200x256_200_0).emb (ix2 r q)) 0).val = 200 + r.val := by
      show 200 + 1 * r.val = _; omega
    have e1 : ((Rect.unit (s := S400x256) ![200, 0] S200x256.size inb_S400x256_S200x256_200_0).emb (ix2 r q)) 1 = q := Fin.ext (by
      show 0 + 1 * q.val = _; omega)
    rw [dif_neg (by rw [e0]; omega), e1]
    have er : (⟨(((Rect.unit (s := S400x256) ![200, 0] S200x256.size inb_S400x256_S200x256_200_0).emb (ix2 r q)) 0).val - 200, by rw [e0]; have := r.isLt; omega⟩ : Fin 200) = r := Fin.ext (by show _ - 200 = r.val; rw [e0]; omega)
    rw [er]
  · obtain ⟨r, q, rfl⟩ : ∃ (r : Fin 200) (q : Fin 256), x = ix2 r q := ⟨x 0, x 1, eq_ix2 x⟩
    show k0_pay2 (F := Ideal) h b a₁ (ix2 r q) = _
    rw [Payload.stored_upper]
    unfold twoHalves
    have e0 : (((Rect.unit (s := S400x256) ![0, 0] S200x256.size inb_S400x256_S200x256_0_0).emb (ix2 r q)) 0).val = r.val := by
      show 0 + 1 * r.val = _; omega
    have e1 : ((Rect.unit (s := S400x256) ![0, 0] S200x256.size inb_S400x256_S200x256_0_0).emb (ix2 r q)) 1 = q := Fin.ext (by
      show 0 + 1 * q.val = _; omega)
    rw [dif_pos (by rw [e0]; exact r.isLt), e1]
    have er : (⟨(((Rect.unit (s := S400x256) ![0, 0] S200x256.size inb_S400x256_S200x256_0_0).emb (ix2 r q)) 0).val, by rw [e0]; exact r.isLt⟩ : Fin 200) = r := Fin.ext e0
    rw [er]

/-- What a later point leaves in the result's staging buffer. -/
theorem laterOut_eq (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : ¬firstPoint i)
    (x0 : Vec Ideal S10000x256 .f32) (x1 : Vec Ideal S256x256 .f32) (x2 : Vec Ideal S1x256 .f32) (x3 : Vec Ideal S200x10000 .f32) (x4 : Vec Ideal S200x10000 .f32) (xs : Vec Ideal S10000x256 .bf16) :
    laterOut (F := Ideal) c i arg1 harg1 arg2 harg2 arg3 harg3 arg4 harg4 arg5 harg5 arg6 harg6 arg7 harg7 hc x0 x1 x2 x3 x4 xs = twoHalves xs x2 x3 x4 := by
  unfold laterOut
  rw [View.read_writes_eq_canon _ _ _ (laterCover5 c i arg1 harg1 arg2 harg2 arg3 harg3 arg4 harg4 arg5 harg5 arg6 harg6 arg7 harg7 hc x0 x1 x2 x3 x4 xs)]
  refine halves_canon xs x2 x3 x4 _ ?_ (laterCover5 c i arg1 harg1 arg2 harg2 arg3 harg3 arg4 harg4 arg5 harg5 arg6 harg6 arg7 harg7 hc x0 x1 x2 x3 x4 xs)
  unfold laterRun
  dsimp only
  simp only [View.readAt_eq_ld, harg7.read_unread, harg3.read_unread, harg4.read_unread, harg5.read_unread,
    View.ld_unit_zero (S := S10000x256) zeros2, View.ld_unit_zero (S := S1x256) zeros2, View.ld_unit_zero (S := S200x10000) zeros2]

/-- What the first point leaves there: the same, of the product it has just stored in the scratch. -/
theorem firstOut_eq (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x256 .f32) (harg6 : arg6.IsWhole) (arg7 : Memref sig .tc .vmem S10000x256 .bf16) (harg7 : arg7.IsWhole) (hc : firstPoint i)
    (x0 : Vec Ideal S10000x256 .f32) (x1 : Vec Ideal S256x256 .f32) (x2 : Vec Ideal S1x256 .f32) (x3 : Vec Ideal S200x10000 .f32) (x4 : Vec Ideal S200x10000 .f32) :
    firstOut (F := Ideal) c i arg1 harg1 arg2 harg2 arg3 harg3 arg4 harg4 arg5 harg5 arg6 harg6 arg7 harg7 hc x0 x1 x2 x3 x4 = twoHalves (k0_pay1 (F := Ideal) x0 x1) x2 x3 x4 := by
  unfold firstOut
  rw [View.read_writes_eq_canon _ _ _ (firstCover5 c i arg1 harg1 arg2 harg2 arg3 harg3 arg4 harg4 arg5 harg5 arg6 harg6 arg7 harg7 hc x0 x1 x2 x3 x4)]
  refine halves_canon (k0_pay1 (F := Ideal) x0 x1) x2 x3 x4 _ ?_ (firstCover5 c i arg1 harg1 arg2 harg2 arg3 harg3 arg4 harg4 arg5 harg5 arg6 harg6 arg7 harg7 hc x0 x1 x2 x3 x4)
  unfold firstRun
  dsimp only
  sl_unfold_words
  simp only [View.readCov_unit_zero (S := S10000x256) _ zeros2, View.readAt_eq_ld, harg1.read_unread, harg2.read_unread, harg3.read_unread, harg4.read_unread, harg5.read_unread,
    View.ld_unit_zero (S := S10000x256) zeros2, View.ld_unit_zero (S := S256x256) zeros2, View.ld_unit_zero (S := S1x256) zeros2, View.ld_unit_zero (S := S200x10000) zeros2]

end Cert.KernelIdeal.Hand

end
-- ==== Proof.Spec.lean ====
/-
  The function both programs compute, over the extended reals.

  h = x · W (a [10000, 256] matrix) and out = adj · h + b, the row b repeated down the 10000 rows:
      out(p, q) = Σ_{k < 10000} adj(p, k) · (Σ_{j < 256} x(k, j) · W(j, q)) + b(0, q).
  No algebraic law is needed to compare the two programs: both form the inner sums first and the outer sum over
  them, in this very arrangement, so nothing here asks the entries to be finite.
-/
import Idealize.ShloMosaic.PureOps.Ideal
import Idealize.ShloMosaic.Lib.ValueIdx

noncomputable section

namespace Cert.GraphConv

open Idealize.ShloMosaic Idealize.ShloMosaic.ValueIdx

/-- h(k, q) = Σ_j x(k, j) · W(j, q). -/
def hidden (x : (⟨2, ![10000, 256]⟩ : Shape).Idx → EReal) (W : (⟨2, ![256, 256]⟩ : Shape).Idx → EReal) :
    (⟨2, ![10000, 256]⟩ : Shape).Idx → EReal :=
  fun i => ∑ j : Fin 256, x (ix2 (i 0) j) * W (ix2 j (i 1))

/-- out(p, q) = Σ_k adj(p, k) · h(k, q) + b(0, q). -/
def conv (x : (⟨2, ![10000, 256]⟩ : Shape).Idx → EReal) (adj : (⟨2, ![10000, 10000]⟩ : Shape).Idx → EReal)
    (W : (⟨2, ![256, 256]⟩ : Shape).Idx → EReal) (b : (⟨2, ![1, 256]⟩ : Shape).Idx → EReal) :
    (⟨2, ![10000, 256]⟩ : Shape).Idx → EReal :=
  fun i => (∑ k : Fin 10000, adj (ix2 (i 0) k) * hidden x W (ix2 k (i 1))) + b (ix2 (0 : Fin 1) (i 1))

theorem hidden_ix2 (x : (⟨2, ![10000, 256]⟩ : Shape).Idx → EReal) (W : (⟨2, ![256, 256]⟩ : Shape).Idx → EReal)
    (k : Fin 10000) (q : Fin 256) : hidden x W (ix2 k q) = ∑ j : Fin 256, x (ix2 k j) * W (ix2 j q) := rfl

theorem conv_ix2 (x : (⟨2, ![10000, 256]⟩ : Shape).Idx → EReal) (adj : (⟨2, ![10000, 10000]⟩ : Shape).Idx → EReal)
    (W : (⟨2, ![256, 256]⟩ : Shape).Idx → EReal) (b : (⟨2, ![1, 256]⟩ : Shape).Idx → EReal) (p : Fin 10000) (q : Fin 256) :
    conv x adj W b (ix2 p q) = (∑ k : Fin 10000, adj (ix2 p k) * hidden x W (ix2 k q)) + b (ix2 (0 : Fin 1) q) := rfl

end Cert.GraphConv

end
-- ==== Proof.ArrayI.lean ====
/-
  The result array of the idealized kernel.

  Point t writes back rows 400t .. 400t+399 of the result.  Its upper half is computed from rows 400t .. 400t+199
  of adj and its lower half from rows 400t+200 .. 400t+399, each as a · h + b with h = x · W read from the
  scratch, and x, W, b are shown whole at every point.  So row 400t + r of what point t writes back is row
  400t + r of adj · (x · W) + b, and the 25 blocks fill the array: the result ends at `conv x adj W b`.
-/
import proofs.«150722_g60902636257280_cont_9to1c4b_369_12_alg».proof.Proof.RunI
import proofs.«150722_g60902636257280_cont_9to1c4b_369_12_alg».proof.Proof.PiecesI
import proofs.«150722_g60902636257280_cont_9to1c4b_369_12_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.GraphConv

variable (m : (ℓ : Loc nD τ sig) → Buf (Elt Ideal) ℓ) (ρ : Dev nD → PrngReg)

/-- Where each window's block sits at point `t`: x, W and b whole; adj's two windows at row blocks 2t and
    2t + 1 (of 200 rows); the result's at row block t (of 400 rows). -/
theorem where_blocks : ∀ t : Fin cfg0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 2 * t.val ∧ win0_3.index t 1 = 0)
    ∧ (win0_4.index t 0 = 2 * t.val + 1 ∧ win0_4.index t 1 = 0) ∧ (win0_5.index t 0 = t.val ∧ win0_5.index t 1 = 0) :=
  (by decide +kernel : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 2 * t.val ∧ win0_3.index t 1 = 0)
    ∧ (win0_4.index t 0 = 2 * t.val + 1 ∧ win0_4.index t 1 = 0) ∧ (win0_5.index t 0 = t.val ∧ win0_5.index t 1 = 0))

/-- The result's block is never cut. -/
theorem extent5 : ∀ t : Fin cfg0.N, win0_5.xsize (grid0.coords t) 0 = 400 ∧ win0_5.xsize (grid0.coords t) 1 = 256 :=
  (by decide +kernel : ∀ t : Fin grid0.N, win0_5.xsize (grid0.coords t) 0 = 400 ∧ win0_5.xsize (grid0.coords t) 1 = 256)

/-- Row r of the 400-row block of point t, as a row of the whole array. -/
def rowOf (t : Fin cfg0.N) (r : Fin 400) : Fin 10000 :=
  ⟨400 * t.val + r.val, by have hN : cfg0.N = 25 := N_0; have ht := t.isLt; have hr := r.isLt; omega⟩

/-! ## The blocks the windows show, entry by entry -/

theorem x_block (c : Dev nD) (t : Fin cfg0.N) (p : Fin 10000) (j : Fin 256) :
    (blockAt m c 0 t : Vec Ideal S10000x256 .f32) (ix2 p j) = m ((c : Thread nD τ).loc main_arg0) (ix2 p j) := by
  unfold blockAt
  rw [View.read_apply]
  show atEntry m c main_arg0 _ = m (c.tc.loc main_arg0) _
  refine congrArg (m ((c : Thread nD τ).loc main_arg0)) (funext fun a => Fin.ext ?_)
  match a with
  | ⟨0, _⟩ => show win0_0.index t 0 * 10000 + 1 * p.val = p.val; rw [(where_blocks t).1.1]; omega
  | ⟨1, _⟩ => show win0_0.index t 1 * 256 + 1 * j.val = j.val; rw [(where_blocks t).1.2]; omega

theorem w_block (c : Dev nD) (t : Fin cfg0.N) (j : Fin 256) (q : Fin 256) :
    (blockAt m c 1 t : Vec Ideal S256x256 .f32) (ix2 j q) = m ((c : Thread nD τ).loc main_arg2) (ix2 j q) := by
  unfold blockAt
  rw [View.read_apply]
  show atEntry m c main_arg2 _ = m (c.tc.loc main_arg2) _
  refine congrArg (m ((c : Thread nD τ).loc main_arg2)) (funext fun a => Fin.ext ?_)
  match a with
  | ⟨0, _⟩ => show win0_1.index t 0 * 256 + 1 * j.val = j.val; rw [(where_blocks t).2.1.1]; omega
  | ⟨1, _⟩ => show win0_1.index t 1 * 256 + 1 * q.val = q.val; rw [(where_blocks t).2.1.2]; omega

theorem b_block (c : Dev nD) (t : Fin cfg0.N) (q : Fin 256) :
    (blockAt m c 2 t : Vec Ideal S1x256 .f32) (ix2 (0 : Fin 1) q) = m ((c : Thread nD τ).loc main_arg3) (ix2 (0 : Fin 1) q) := by
  unfold blockAt
  rw [View.read_apply]
  show atEntry m c main_arg3 _ = m (c.tc.loc main_arg3) _
  refine congrArg (m ((c : Thread nD τ).loc main_arg3)) (funext fun a => Fin.ext ?_)
  match a with
  | ⟨0, _⟩ => show win0_2.index t 0 * 1 + 1 * 0 = 0; rw [(where_blocks t).2.2.1.1]
  | ⟨1, _⟩ => show win0_2.index t 1 * 256 + 1 * q.val = q.val; rw [(where_blocks t).2.2.1.2]; omega

/-- The first window of adj shows rows 400t .. 400t+199. -/
theorem adj_upper (c : Dev nD) (t : Fin cfg0.N) (r : Fin 200) (k : Fin 10000) :
    (blockAt m c 3 t : Vec Ideal S200x10000 .f32) (ix2 r k)
      = m ((c : Thread nD τ).loc main_arg1) (ix2 (rowOf t ⟨r.val, by have := r.isLt; omega⟩) k) := by
  unfold blockAt
  rw [View.read_apply]
  show atEntry m c main_arg1 _ = m (c.tc.loc main_arg1) _
  refine congrArg (m ((c : Thread nD τ).loc main_arg1)) (funext fun a => Fin.ext ?_)
  match a with
  | ⟨0, _⟩ => show win0_3.index t 0 * 200 + 1 * r.val = 400 * t.val + r.val; rw [(where_blocks t).2.2.2.1.1]; omega
  | ⟨1, _⟩ => show win0_3.index t 1 * 10000 + 1 * k.val = k.val; rw [(where_blocks t).2.2.2.1.2]; omega

/-- The second shows rows 400t+200 .. 400t+399. -/
theorem adj_lower (c : Dev nD) (t : Fin cfg0.N) (r : Fin 200) (k : Fin 10000) :
    (blockAt m c 4 t : Vec Ideal S200x10000 .f32) (ix2 r k)
      = m ((c : Thread nD τ).loc main_arg1) (ix2 (rowOf t ⟨200 + r.val, by have := r.isLt; omega⟩) k) := by
  unfold blockAt
  rw [View.read_apply]
  show atEntry m c main_arg1 _ = m (c.tc.loc main_arg1) _
  refine congrArg (m ((c : Thread nD τ).loc main_arg1)) (funext fun a => Fin.ext ?_)
  match a with
  | ⟨0, _⟩ => show win0_4.index t 0 * 200 + 1 * r.val = 400 * t.val + (200 + r.val); rw [(where_blocks t).2.2.2.2.1.1]; omega
  | ⟨1, _⟩ => show win0_4.index t 1 * 10000 + 1 * k.val = k.val; rw [(where_blocks t).2.2.2.2.1.2]; omega

/-! ## What the scratch holds, and what a point leaves -/

/-- From the first point on the scratch holds h = x · W. -/
theorem keptH_apply (c : Dev nD) (k : Fin 10000) (q : Fin 256) :
    keptH m c (ix2 k q) = hidden (m ((c : Thread nD τ).loc main_arg0)) (m ((c : Thread nD τ).loc main_arg2)) (ix2 k q) := by
  unfold keptH
  rw [firstKeep_eq, Payload.stored_h, hidden_ix2]
  exact Finset.sum_congr rfl fun j _ => by rw [x_block, w_block]

/-- After any point the result's staging buffer holds the two halves computed from that h. -/
theorem resultAt_eq (c : Dev nD) (t : Fin cfg0.N) :
    resultAt m c t = twoHalves (keptH m c) (blockAt m c 2 t) (blockAt m c 3 t) (blockAt m c 4 t) := by
  by_cases hz : t.val = 0
  · obtain rfl : t = t₀ := Fin.ext hz
    rw [resultAt_first m c t₀ rfl, firstOut_eq]
    unfold keptH
    rw [firstKeep_eq]
  · rw [resultAt_later m c t hz, laterOut_eq]

/-- The array both programs end with. -/
abbrev result (c : Dev nD) : Buf (Elt Ideal) ((c : Thread nD τ).loc main_v0) :=
  conv (m ((c : Thread nD τ).loc main_arg0)) (m ((c : Thread nD τ).loc main_arg1)) (m ((c : Thread nD τ).loc main_arg2))
    (m ((c : Thread nD τ).loc main_arg3))

/-- Row r of what point t leaves is row 400t + r of adj · (x · W) + b. -/
theorem resultAt_apply (c : Dev nD) (t : Fin cfg0.N) (r : Fin 400) (q : Fin 256) :
    resultAt m c t (ix2 r q) = result m c (ix2 (rowOf t r) q) := by
  rw [resultAt_eq]
  show _ = conv _ _ _ _ (ix2 (rowOf t r) q)
  rw [conv_ix2]
  unfold twoHalves
  by_cases hlt : r.val < 200
  · rw [dif_pos (show ((ix2 r q : S400x256.Idx) 0).val < 200 from hlt)]
    refine congrArg₂ (· + ·) (Finset.sum_congr rfl fun k _ => ?_) (b_block m c t q)
    exact congrArg₂ (fun (u v : EReal) => u * v) (adj_upper m c t ⟨r.val, hlt⟩ k) (keptH_apply m c k q)
  · rw [dif_neg (show ¬((ix2 r q : S400x256.Idx) 0).val < 200 from hlt)]
    have er : rowOf t ⟨200 + (r.val - 200), by have := r.isLt; omega⟩ = rowOf t r := Fin.ext (by
      show 400 * t.val + (200 + (r.val - 200)) = 400 * t.val + r.val; omega)
    refine congrArg₂ (· + ·) (Finset.sum_congr rfl fun k _ => ?_) (b_block m c t q)
    exact congrArg₂ (fun (u v : EReal) => u * v)
      ((adj_lower m c t ⟨r.val - 200, by have := r.isLt; omega⟩ k).trans (by rw [er])) (keptH_apply m c k q)

/-! ## From blocks to the array -/

/-- What point t writes back is block t of the array. -/
theorem flushed_eq (c : Dev nD) (t : Fin cfg0.N) (hf : (cfg0.win 5).flush t = true) :
    (dats m 0 c).flushed 5 t = ((cfg0.win 5).blk t).view.read (Elt Ideal) (result m c) := by
  have hL : (dats m 0 c).flushed 5 t = resultAt m c t := by
    show (cfg0.win 5).cut (grid0.coords t) ((dats m 0 c).after 5 t) = _
    rw [after5]; rfl
  rw [hL]
  funext y
  obtain ⟨r, q, rfl⟩ : ∃ (r : Fin 400) (q : Fin 256), y = ix2 r q := ⟨y 0, y 1, eq_ix2 y⟩
  rw [View.read_apply, resultAt_apply]
  refine congrArg (result m c) (funext fun a => Fin.ext ?_)
  match a with
  | ⟨0, _⟩ => show 400 * t.val + r.val = win0_5.index t 0 * 400 + 1 * r.val; rw [(where_blocks t).2.2.2.2.2.1]; omega
  | ⟨1, _⟩ => show q.val = win0_5.index t 1 * 256 + 1 * q.val; rw [(where_blocks t).2.2.2.2.2.2]; omega

/-- Every row lies in the block of the point that is its quotient by 400. -/
theorem covered (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 10000 := (i 0).isLt
  have h1 : (i 1 : Nat) < 256 := (i 1).isLt
  let t : Fin cfg0.N := ⟨(i 0 : Nat) / 400, by have hN : cfg0.N = 25 := N_0; omega⟩
  refine ⟨t, flush0_5 t, ?_⟩
  show i ∈ ((View.whole main_v0).slice (win0_5.rect t)).set
  rw [View.set_slice_whole, Rect.mem_set_unit]
  intro a
  match a with
  | ⟨0, _⟩ =>
    show win0_5.index t 0 * win0_5.size 0 ≤ (i 0 : Nat) ∧ (i 0 : Nat) < win0_5.index t 0 * win0_5.size 0 + win0_5.xsize (grid0.coords t) 0
    rw [(where_blocks t).2.2.2.2.2.1, (extent5 t).1, show win0_5.size 0 = 400 from rfl]
    show (i 0 : Nat) / 400 * 400 ≤ (i 0 : Nat) ∧ (i 0 : Nat) < (i 0 : Nat) / 400 * 400 + 400
    omega
  | ⟨1, _⟩ =>
    show win0_5.index t 1 * win0_5.size 1 ≤ (i 1 : Nat) ∧ (i 1 : Nat) < win0_5.index t 1 * win0_5.size 1 + win0_5.xsize (grid0.coords t) 1
    rw [(where_blocks t).2.2.2.2.2.2, (extent5 t).2]
    omega

/-- So the result array ends at adj · (x · W) + b. -/
theorem final (c : Dev nD) : (dats m 0 c).arrAt 5 cfg0.N = result m c :=
  (dats m 0 c).arrAt_eq_of_cover 5 (result m c) (flushed_eq m c) (covered c)

/-- The run of the idealized kernel, read: the result at `result`, the four arguments unchanged. -/
theorem run_value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans (final m c),
     ((h c).1 0).trans (((dats m 0 c).arrAt_in 0 rfl _).trans (A_eq m c 0)),
     ((h c).1 3).trans (((dats m 0 c).arrAt_in 3 rfl _).trans (A_eq m c 3)),
     ((h c).1 1).trans (((dats m 0 c).arrAt_in 1 rfl _).trans (A_eq m c 1)),
     ((h c).1 2).trans (((dats m 0 c).arrAt_in 2 rfl _).trans (A_eq m c 2))⟩) (run_main m ρ)

end Cert.KernelIdeal.Hand

end
-- ==== Proof.RefValue.lean ====
/-
  The reference at the ideal values is `conv`: its two `dot_general`s are the inner and the outer sums, its
  broadcast repeats the row b, and its addition adds it — entry by entry the very arrangement of `conv`.
-/
import proofs.«150722_g60902636257280_cont_9to1c4b_369_12_alg».proof.Proof.Gen.ReferenceIdeal.Read
import proofs.«150722_g60902636257280_cont_9to1c4b_369_12_alg».proof.Proof.Spec

noncomputable section

namespace Cert.ReferenceIdeal.RefValue

open Cert.ReferenceIdeal Cert.ReferenceIdeal.Read
open Idealize.ShloMosaic Idealize.ShloMosaic.ValueIdx
open Cert.GraphConv

/-- The reference's last stage, as a function of the four arguments, is adj · (x · W) + b. -/
theorem reference_is_conv (x0 : (⟨S10000x256, .f32⟩ : BufTy).Contents (Elt Ideal)) (x1 : (⟨S10000x10000, .f32⟩ : BufTy).Contents (Elt Ideal))
    (x2 : (⟨S256x256, .f32⟩ : BufTy).Contents (Elt Ideal)) (x3 : (⟨S1x256, .f32⟩ : BufTy).Contents (Elt Ideal)) :
    val_main_v3 (F := Ideal) x0 x1 x2 x3 = conv x0 x1 x2 x3 := by
  funext i
  obtain ⟨p, q, rfl⟩ : ∃ (p : Fin 10000) (q : Fin 256), i = ix2 p q := ⟨i 0, i 1, eq_ix2 i⟩
  rw [val_main_v3_apply, val_main_v1_apply, val_main_v2_apply, conv_ix2]
  refine congrArg₂ (· + ·) (Finset.sum_congr rfl fun k _ => ?_) ?_
  · have el : lidx_main_v1 (ix2 p q) k = ix2 p k := funext fun a => Fin.ext (by match a with | ⟨0, _⟩ => rfl | ⟨1, _⟩ => rfl)
    have er : ridx_main_v1 (ix2 p q) k = ix2 k q := funext fun a => Fin.ext (by match a with | ⟨0, _⟩ => rfl | ⟨1, _⟩ => rfl)
    rw [el, er, val_main_v0_apply, hidden_ix2]
    refine congrArg (x1 (ix2 p k) * ·) (Finset.sum_congr rfl fun j _ => ?_)
    have el0 : lidx_main_v0 (ix2 k q) j = ix2 k j := funext fun a => Fin.ext (by match a with | ⟨0, _⟩ => rfl | ⟨1, _⟩ => rfl)
    have er0 : ridx_main_v0 (ix2 k q) j = ix2 j q := funext fun a => Fin.ext (by match a with | ⟨0, _⟩ => rfl | ⟨1, _⟩ => rfl)
    rw [el0, er0]
  · exact congrArg x3 (funext fun a => Fin.ext (by match a with | ⟨0, _⟩ => rfl | ⟨1, _⟩ => rfl))

end Cert.ReferenceIdeal.RefValue

end
-- ==== Proof.lean ====
/-
  The certificate of the fused graph-convolution kernel against its jnp reference: out = adj · (x · W) + b over
  N = 10000 nodes and 256 features.

  The kernel runs 25 grid points.  At the first it forms h = x · W on the matrix unit and keeps it in a scratch
  buffer for the whole grid; at every point it reads two 200-row blocks of adj — two windows over the ONE array
  adj — multiplies each by h, adds the row b, and stores the two halves of a 400-row block of the result.  Its
  narrowings to bf16 are the identity at the ideal values, where a matrix product into a zero accumulator is the
  plain sum; so row 400t + r of the block point t writes back is row 400t + r of adj · (x · W) + b, and the
  25 blocks fill the result.  The reference forms x · W and adj · (x · W) by two `dot_general`s and adds the
  broadcast row b: entry by entry the same nested sum, in the same arrangement — no law of arithmetic is
  needed to join the two sides, and the precondition (finite inputs) is never opened.

  The three frames: the kernel's, at the word-level values and at the ideal values alike, is the launch of one
  region whose input windows share an array (adj's ownership is halved between its two windows) and whose body
  carries the scratch from point to point; the reference's is its run with the result dropped.  Nothing was
  rewritten by the idealization, so `preserves` is `True`.
-/
import proofs.«150722_g60902636257280_cont_9to1c4b_369_12_alg».proof.Defs
import proofs.«150722_g60902636257280_cont_9to1c4b_369_12_alg».proof.Proof.Gen.Kernel
import proofs.«150722_g60902636257280_cont_9to1c4b_369_12_alg».proof.Proof.Gen.KernelIdeal
import proofs.«150722_g60902636257280_cont_9to1c4b_369_12_alg».proof.Proof.Gen.ReferenceIdeal
import proofs.«150722_g60902636257280_cont_9to1c4b_369_12_alg».proof.Proof.Gen.Pre_finite_inputs
import proofs.«150722_g60902636257280_cont_9to1c4b_369_12_alg».proof.Proof.Gen.ReferenceIdeal.Run
import proofs.«150722_g60902636257280_cont_9to1c4b_369_12_alg».proof.Proof.Gen.ReferenceIdeal.Read
import proofs.«150722_g60902636257280_cont_9to1c4b_369_12_alg».proof.Proof.RunB
import proofs.«150722_g60902636257280_cont_9to1c4b_369_12_alg».proof.Proof.ArrayI
import proofs.«150722_g60902636257280_cont_9to1c4b_369_12_alg».proof.Proof.RefValue
import Idealize.ShloMosaic.Adequacy
import Idealize.ShloMosaic.Init

noncomputable section

namespace Cert.Proof

open Idealize.ShloMosaic Idealize.ShloMosaic.TcCoe Idealize.SL.Sem

/-- The kernel at the word-level values runs, faults nowhere and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with adj · (x · W) + b of the arguments they agree on. -/
theorem algebraic : Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_is_conv,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
